-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S3x128x128 : Shape := ⟨3, ![3, 128, 128]⟩
abbrev S384x128 : Shape := ⟨2, ![384, 128]⟩
abbrev S384 : Shape := ⟨1, ![384]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384x128 .f32) (main_arg5 : FVec F S384 .f32) (main_arg6 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg4
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S100000x128 .f32) (main_arg1 : FVec F S1600000 .f32) (main_arg2 : FVec F S3x128x128 .f32) (main_arg3 : FVec F S384x128 .f32) (main_arg4 : FVec F S384x128 .f32) (main_arg5 : FVec F S384 .f32) (main_arg6 : FVec F S384 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_v13 main_v16
-- ==== Kernel.lean ====
abbrev S100000x128 : Shape := ⟨2, ![100000, 128]⟩
abbrev S1600000 : Shape := ⟨1, ![1600000]⟩
abbrev S3x128x128 : Shape := ⟨3, ![3, 128, 128]⟩
abbrev S384x128 : Shape := ⟨2, ![384, 128]⟩
abbrev S384 : Shape := ⟨1, ![384]⟩
abbrev S2x1600000 : Shape := ⟨2, ![2, 1600000]⟩
abbrev S1x1600000 : Shape := ⟨2, ![1, 1600000]⟩
abbrev S128x384 : Shape := ⟨2, ![128, 384]⟩
abbrev S1x128x128 : Shape := ⟨3, ![1, 128, 128]⟩
abbrev S128x128 : Shape := ⟨2, ![128, 128]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S2000x384 : Shape := ⟨2, ![2000, 384]⟩
abbrev S1x384 : Shape := ⟨2, ![1, 384]⟩

abbrev nBuf : Space → Nat
  | .hbm => 74
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S3x128x128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x384, .f32⟩
  | .hbm, ⟨13, _⟩ => ⟨S128x384, .f32⟩
  | .hbm, ⟨14, _⟩ => ⟨S1x128x128, .f32⟩
  | .hbm, ⟨15, _⟩ => ⟨S128x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S1x128x128, .f32⟩
  | .hbm, ⟨35, _⟩ => ⟨S128x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x1, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .hbm, ⟨54, _⟩ => ⟨S1x128x128, .f32⟩
  | .hbm, ⟨55, _⟩ => ⟨S128x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S1600000x1, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x384, .f32⟩
  | .local _ .vmem, ⟨10, _⟩ => ⟨S128x384, .f32⟩
  | .local _ .vmem, ⟨11, _⟩ => ⟨S384, .f32⟩
  | .local _ .vmem, ⟨12, _⟩ => ⟨S384, .f32⟩
  | .local _ .vmem, ⟨13, _⟩ => ⟨S2000x128, .f32⟩
  | .local _ .vmem, ⟨14, _⟩ => ⟨S2000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S10000x128, .f32⟩
  | .local _ .vmem, ⟨19, _⟩ => ⟨S10000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x384, .f32⟩
  | .local _ .vmem, ⟨25, _⟩ => ⟨S128x384, .f32⟩
  | .local _ .vmem, ⟨26, _⟩ => ⟨S384, .f32⟩
  | .local _ .vmem, ⟨27, _⟩ => ⟨S384, .f32⟩
  | .local _ .vmem, ⟨28, _⟩ => ⟨S2000x128, .f32⟩
  | .local _ .vmem, ⟨29, _⟩ => ⟨S2000x128, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S10000x128, .f32⟩
  | .local _ .vmem, ⟨34, _⟩ => ⟨S10000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S128x384, .f32⟩
  | .local _ .vmem, ⟨40, _⟩ => ⟨S128x384, .f32⟩
  | .local _ .vmem, ⟨41, _⟩ => ⟨S384, .f32⟩
  | .local _ .vmem, ⟨42, _⟩ => ⟨S384, .f32⟩
  | .local _ .vmem, ⟨43, _⟩ => ⟨S2000x128, .f32⟩
  | .local _ .vmem, ⟨44, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_4 : Ref sig .tc := ⟨.hbm, 57, rfl⟩
abbrev main_v43 : Ref sig .tc := ⟨.hbm, 58, rfl⟩
abbrev main_v44 : Ref sig .tc := ⟨.hbm, 59, rfl⟩
abbrev main_c_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S384x128_S128x384_1_0 : S384x128.Transposes [1, 0] S128x384
  slices_S3x128x128_S1x128x128_0_0_0 : S3x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S3x128x128_S1x128x128_1_0_0 : S3x128x128.Slices ![1, 0, 0] S1x128x128
  shapeCasts_S10000x128_S10000x128 : S10000x128.ShapeCasts S10000x128
  slices_S3x128x128_S1x128x128_2_0_0 : S3x128x128.Slices ![2, 0, 0] S1x128x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384.size a ≤ S384.size a
  hwx1_4 : ∀ i : grid1.Coords, EltTy.bits .f32 = 32 ∨ (Rect.block (s := S384) S384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384.size a ≤ S384.size a
  hwx1_5 : ∀ i : grid1.Coords, EltTy.bits .f32 = 32 ∨ (Rect.block (s := S384) S384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S384.size a ≤ S384.size a
  hwx3_4 : ∀ i : grid3.Coords, EltTy.bits .f32 = 32 ∨ (Rect.block (s := S384) S384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S384.size a ≤ S384.size a
  hwx3_5 : ∀ i : grid3.Coords, EltTy.bits .f32 = 32 ∨ (Rect.block (s := S384) S384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x384.size a ≤ S128x384.size a
  hwx5_2 : ∀ i : grid5.Coords, EltTy.bits .f32 = 32 ∨ (Rect.block (s := S128x384) S128x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S384.size a ≤ S384.size a
  hwx5_4 : ∀ i : grid5.Coords, EltTy.bits .f32 = 32 ∨ (Rect.block (s := S384) S384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S384.size a ≤ S384.size a
  hwx5_5 : ∀ i : grid5.Coords, EltTy.bits .f32 = 32 ∨ (Rect.block (s := S384) S384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v22) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg6) S384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v39) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v39) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S128x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg5) S384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg6) S384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v56) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S3x128x128 : Shape := ⟨3, ![3, 128, 128]⟩
abbrev S384x128 : Shape := ⟨2, ![384, 128]⟩
abbrev S384 : Shape := ⟨1, ![384]⟩
abbrev S2x1600000 : Shape := ⟨2, ![2, 1600000]⟩
abbrev S1x1600000 : Shape := ⟨2, ![1, 1600000]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S1600000, .f32⟩
  | 2 => ⟨S3x128x128, .f32⟩
  | 3 => ⟨S384x128, .f32⟩
  | 4 => ⟨S384x128, .f32⟩
  | 5 => ⟨S384, .f32⟩
  | 6 => ⟨S384, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S1x128x128, .f32⟩
  | 13 => ⟨S128x128, .f32⟩
  | 14 => ⟨S100000x128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S1600000x1, .f32⟩
  | 25 => ⟨S1600000x128, .f32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S128x384, .f32⟩
  | 32 => ⟨S100000x384, .f32⟩
  | 33 => ⟨S1x384, .f32⟩
  | 34 => ⟨S100000x384, .f32⟩
  | 35 => ⟨S100000x384, .f32⟩
  | 36 => ⟨S128x384, .f32⟩
  | 37 => ⟨S100000x384, .f32⟩
  | 38 => ⟨S1x384, .f32⟩
  | 39 => ⟨S100000x384, .f32⟩
  | 40 => ⟨S100000x384, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S1600000x1, .f32⟩
  | 87 => ⟨S1600000x128, .f32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S128x384, .f32⟩
  | 94 => ⟨S100000x384, .f32⟩
  | 95 => ⟨S1x384, .f32⟩
  | 96 => ⟨S100000x384, .f32⟩
  | 97 => ⟨S100000x384, .f32⟩
  | 98 => ⟨S128x384, .f32⟩
  | 99 => ⟨S100000x384, .f32⟩
  | 100 => ⟨S1x384, .f32⟩
  | 101 => ⟨S100000x384, .f32⟩
  | 102 => ⟨S100000x384, .f32⟩
  | 103 => ⟨S100000x128, .f32⟩
  | 104 => ⟨S100000x128, .f32⟩
  | 105 => ⟨S100000x128, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1600000x1, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S128x384, .f32⟩
  | 28 => ⟨S100000x384, .f32⟩
  | 29 => ⟨S1x384, .f32⟩
  | 30 => ⟨S100000x384, .f32⟩
  | 31 => ⟨S100000x384, .f32⟩
  | 32 => ⟨S128x384, .f32⟩
  | 33 => ⟨S100000x384, .f32⟩
  | 34 => ⟨S1x384, .f32⟩
  | 35 => ⟨S100000x384, .f32⟩
  | 36 => ⟨S100000x384, .f32⟩
  | 37 => ⟨S100000x128, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S100000x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S100000x128, .f32⟩
  | 69 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_6 : Ref sig .tc := ⟨.hbm, 77, rfl⟩
abbrev main_v61 : Ref sig .tc := ⟨.hbm, 78, rfl⟩
abbrev main_v62 : Ref sig .tc := ⟨.hbm, 79, rfl⟩
abbrev main_c_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_9 : Ref sig .tc := ⟨.hbm, 112, rfl⟩
abbrev main_v93 : Ref sig .tc := ⟨.hbm, 113, rfl⟩
abbrev main_v94 : Ref sig .tc := ⟨.hbm, 114, rfl⟩
abbrev main_cst_10 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_11 : Ref sig .tc := ⟨.hbm, 121, rfl⟩
abbrev main_v100 : Ref sig .tc := ⟨.hbm, 122, rfl⟩
abbrev main_v101 : Ref sig .tc := ⟨.hbm, 123, rfl⟩
abbrev main_cst_12 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_13 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_c_14 : Ref sig .tc := ⟨.hbm, 139, rfl⟩
abbrev main_v115 : Ref sig .tc := ⟨.hbm, 140, rfl⟩
abbrev main_v116 : Ref sig .tc := ⟨.hbm, 141, rfl⟩
abbrev main_c_15 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_16 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_17 : Ref sig .tc := ⟨.hbm, 174, rfl⟩
abbrev main_v147 : Ref sig .tc := ⟨.hbm, 175, rfl⟩
abbrev main_v148 : Ref sig .tc := ⟨.hbm, 176, rfl⟩
abbrev main_cst_18 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_19 : Ref sig .tc := ⟨.hbm, 183, rfl⟩
abbrev main_v154 : Ref sig .tc := ⟨.hbm, 184, rfl⟩
abbrev main_v155 : Ref sig .tc := ⟨.hbm, 185, rfl⟩
abbrev main_cst_20 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_21 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S3x128x128_S1x128x128_1_0_0 : S3x128x128.Slices ![1, 0, 0] S1x128x128
  slices_S3x128x128_S1x128x128_2_0_0 : S3x128x128.Slices ![2, 0, 0] S1x128x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.KRun.lean ====
/-
  The idealized kernel's run with its result named.

  The program is six kernel regions among stretches of host operations.  The buffer contents at the twelve segment
  boundaries form a fold from the launch memory: a host stretch applies its operations, a region replaces its output
  array by what its write-backs leave and keeps every other buffer.  Every weakly fair execution terminates without a
  fault with every buffer that outlives the regions at the last boundary's contents; so the result buffer ends at the
  last boundary's contents of the last region's output array, and the arguments end as launched.
-/
import proofs.«116273_j44220983279938_1_alg».proof.Proof.KernelIdealFrameP

set_option maxRecDepth 16384

noncomputable section

namespace Cert.Gnn.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at the
    last boundary's contents and the arguments as launched. -/
theorem run_result : θ_run defs (onTc (τ := τ) (main (F := F))) ⟨m, fun _ => 0, ρ⟩ (fun r => ∀ c : Dev nD,
      r.2.mem ((c.tc : Thread nD τ).loc main_v56) = W12 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v56 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.Gnn.KRun

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«116273_j44220983279938_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«116273_j44220983279938_1_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibDenseLayers.lean ====
/-
  Dense layers on the matrix unit, block by block, against the host's whole-array spelling.

  At the ideal values — floats extended reals, every operation exact, a change of float format the identity —
  for any extents:

  * an affine map computed on a block of B rows, `(block of x) · w + (row b spread over the rows)` with the
    operands narrowed to a smaller float format and the product taken into the zero accumulator, read at the
    block-local index (p, q), is the host's `x · w + b` read at (r, q), when row p of the block is row r of x;
  * clamping below at a constant word is the same function on both sides;
  * a product against a matrix [H1 + H2, N] of two arrays joined along their columns is the sum of the two
    products against the upper H1 rows and the lower H2 rows: a sum over H1 + H2 indices is the sum over the first
    H1 plus the sum over the last H2 (only commutativity and associativity of +, so no finiteness is needed);
  * hence the two-product layer `(block of a) · w_top + (block of e) · w_bottom + b` on the matrix unit is the
    host's `concat(a, e) · w + b`.
-/
import proofs.«116273_j44220983279938_1_alg».proof.Proof.LibDotBlocks
import proofs.«116273_j44220983279938_1_alg».proof.Proof.LibRows
import proofs.«116273_j44220983279938_1_alg».proof.Proof.LibRowBroadcast
import Idealize.ShloMosaic.Lib.ValueIdx
import Idealize.ShloMosaic.Lib.Pipeline.Value
import Idealize.ShloMosaic.PureOps.Ideal.Laws
import Mathlib.Algebra.BigOperators.Fin

noncomputable section

namespace Cert.Lib.DenseLayers

open Idealize.ShloMosaic Idealize.ShloMosaic.ValueIdx

/-- A vector [N] broadcast onto axis 1 of the row [1, N], read at (0, q), is the vector at q. -/
theorem vec_row_apply {α : Type} {N : Nat} (b : (⟨1, ![N]⟩ : Shape).Idx → α)
    (hb1 : (⟨1, ![N]⟩ : Shape).BroadcastsInDim ⟨2, ![1, N]⟩ (![1] : Fin 1 → Fin 2)) (q : Fin N) :
    broadcastInDim ⟨2, ![1, N]⟩ (![1] : Fin 1 → Fin 2) hb1 b (ix2 0 q) = b (ix1 q) :=
  broadcastInDim_apply (![1] : Fin 1 → Fin 2) hb1 b (ix2 0 q) (ix1 q) (fun a => by
    match a with
    | ⟨0, _⟩ =>
      show q.val = if N = 1 then 0 else q.val
      by_cases hC : N = 1
      · rw [if_pos hC]; have := q.isLt; omega
      · rw [if_neg hC])

/-- The bias: the block's row [1, N] spread over its B rows, read at (p, q), is the host's vector [N] made a row
    and spread over the M rows, read at (r, q), when the block's row holds the vector. -/
theorem bias_block_apply {α : Type} {M B N : Nat} (b : (⟨1, ![N]⟩ : Shape).Idx → α) (bb : (⟨2, ![1, N]⟩ : Shape).Idx → α)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N) (hb : bb (ix2 0 q) = b (ix1 q)) :
    broadcastTo ⟨2, ![B, N]⟩ bb hbt (ix2 p q)
      = broadcastInDim ⟨2, ![M, N]⟩ (![0, 1] : Fin 2 → Fin 2) hb01
          (broadcastInDim ⟨2, ![1, N]⟩ (![1] : Fin 1 → Fin 2) hb1 b) (ix2 r q) := by
  rw [Cert.Lib.Rows.broadcastTo_row_apply, Cert.Lib.RowBroadcast.broadcastInDim_row_apply, vec_row_apply, hb]

/-- An affine map on a block of rows is the host's affine map at the block's rows. -/
theorem affine_block_apply {M B K N : Nat} {ψ₁ ψ₂ : FTy}
    (X : FVec Ideal ⟨2, ![M, K]⟩ .f32) (W : FVec Ideal ⟨2, ![K, N]⟩ .f32) (b : FVec Ideal ⟨1, ![N]⟩ .f32)
    (xb : FVec Ideal ⟨2, ![B, K]⟩ .f32) (wb : FVec Ideal ⟨2, ![K, N]⟩ .f32) (bb : FVec Ideal ⟨2, ![1, N]⟩ .f32)
    (g₁ : ψ₁.bits < FTy.f32.bits) (g₂ : ψ₂.bits < FTy.f32.bits) (prec prec' : Option ContractPrecision)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (hx : ∀ k : Fin K, xb (ix2 p k) = X (ix2 r k)) (hw : ∀ k : Fin K, wb (ix2 k q) = W (ix2 k q))
    (hb : bb (ix2 0 q) = b (ix1 q)) :
    addf (matmul (DotDims.plain B K N) prec (truncf ψ₁ xb g₁) (truncf ψ₂ wb g₂) (constant (F := Ideal) ⟨2, ![B, N]⟩ .f32 0x00000000#32))
        (broadcastTo ⟨2, ![B, N]⟩ bb hbt) (ix2 p q)
      = addf (Host.dotGeneral (DotDims.plain M K N) prec' X W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, bias_block_apply b bb hbt hb1 hb01 p r q hb,
    Cert.Lib.DotBlocks.matmul_block_eq_dotGeneral prec prec' X W (truncf ψ₁ xb g₁) (truncf ψ₂ wb g₂) p q r q hx hw]

/-- Clamping below at the constant word z: the vector unit's `max(A, splat z)` at an index is the host's
    `max(A', broadcast of the scalar constant z)` at an index where A and A' agree. -/
theorem relu_eq {s t : Shape} (A : FVec Ideal s .f32) (A' : FVec Ideal t .f32) (z : BitVec FTy.f32.bits) (i : s.Idx) (j : t.Idx)
    (h0 : (⟨0, ![]⟩ : Shape).BroadcastsInDim t (![] : Fin 0 → Fin t.rank)) (hA : A i = A' j) :
    maximumf A (broadcast s (Scalar.ofBits (F := Ideal) .f32 z)) i
      = maximumf A' (broadcastInDim t (![] : Fin 0 → Fin t.rank) h0 (constant (F := Ideal) ⟨0, ![]⟩ .f32 z)) j := by
  rw [maximumf_apply, maximumf_apply, hA,
    Cert.Lib.RowBroadcast.broadcastInDim_scalar_apply _ h0 j (fun a => a.elim0)]
  rfl

/-- A sum over K = K1 + K2 indices is the sum over the first K1 plus the sum over the last K2. -/
theorem sum_split {β : Type} [AddCommMonoid β] {K K1 K2 : Nat} (hK : K = K1 + K2) (f : Fin K → β) :
    ∑ k : Fin K, f k = (∑ k : Fin K1, f ⟨k.val, by omega⟩) + ∑ k : Fin K2, f ⟨K1 + k.val, by omega⟩ := by
  subst hK
  rw [Fin.sum_univ_add]
  rfl

/-- The host's product of two arrays joined along their columns against a matrix [H1 + H2, N], read at (r, q): the
    first array against the upper H1 rows plus the second against the lower H2 rows. -/
theorem concat_dot_apply {M K H1 H2 N : Nat} (hK : K = H1 + H2)
    (A : FVec Ideal ⟨2, ![M, H1]⟩ .f32) (E : FVec Ideal ⟨2, ![M, H2]⟩ .f32) (W : FVec Ideal ⟨2, ![K, N]⟩ .f32)
    (hc : Shape.Concatenates [(⟨2, ![M, H1]⟩ : Shape), ⟨2, ![M, H2]⟩] ⟨2, ![M, K]⟩ 1)
    (prec : Option ContractPrecision) (r : Fin M) (q : Fin N) :
    Host.dotGeneral (DotDims.plain M K N) prec
        (concatenate (⟨2, ![M, K]⟩ : Shape) 1 [⟨(⟨2, ![M, H1]⟩ : Shape), A⟩, ⟨(⟨2, ![M, H2]⟩ : Shape), E⟩] hc) W (ix2 r q)
      = (∑ k : Fin H1, A (ix2 r k) * W (ix2 ⟨k.val, by omega⟩ q))
        + ∑ k : Fin H2, E (ix2 r k) * W (ix2 ⟨H1 + k.val, by omega⟩ q) := by
  rw [Cert.Lib.RowBlocks.dotGeneral_plain_apply, sum_split hK]
  congr 1
  · refine Finset.sum_congr rfl fun k _ => ?_
    rw [concatenate_pair_apply_left (t := (⟨2, ![M, K]⟩ : Shape)) (1 : Fin 2) A E hc (ix2 r ⟨k.val, by omega⟩) rfl (ix2 r k)
      (fun b => by match b with | ⟨0, _⟩ => rfl | ⟨1, _⟩ => rfl)]
  · refine Finset.sum_congr rfl fun k _ => ?_
    rw [concatenate_pair_apply_right (t := (⟨2, ![M, K]⟩ : Shape)) (1 : Fin 2) A E hc (ix2 r ⟨H1 + k.val, by omega⟩) rfl rfl (ix2 r k)
      (fun b hb => by match b with | ⟨0, _⟩ => rfl | ⟨1, _⟩ => exact absurd rfl hb)
      (by show k.val + H1 = H1 + k.val; omega)]

/-- The two-product layer on a block of rows is the host's product of the joined arrays, plus the bias. -/
theorem dual_block_apply {M B K H1 H2 N : Nat} {ψ₁ ψ₂ ψ₃ ψ₄ : FTy} (hK : K = H1 + H2)
    (A : FVec Ideal ⟨2, ![M, H1]⟩ .f32) (E : FVec Ideal ⟨2, ![M, H2]⟩ .f32) (W : FVec Ideal ⟨2, ![K, N]⟩ .f32)
    (b : FVec Ideal ⟨1, ![N]⟩ .f32)
    (ab : FVec Ideal ⟨2, ![B, H1]⟩ .f32) (eb : FVec Ideal ⟨2, ![B, H2]⟩ .f32)
    (wt : FVec Ideal ⟨2, ![H1, N]⟩ .f32) (wl : FVec Ideal ⟨2, ![H2, N]⟩ .f32) (bb : FVec Ideal ⟨2, ![1, N]⟩ .f32)
    (g₁ : ψ₁.bits < FTy.f32.bits) (g₂ : ψ₂.bits < FTy.f32.bits) (g₃ : ψ₃.bits < FTy.f32.bits) (g₄ : ψ₄.bits < FTy.f32.bits)
    (prec₁ prec₂ prec' : Option ContractPrecision)
    (hc : Shape.Concatenates [(⟨2, ![M, H1]⟩ : Shape), ⟨2, ![M, H2]⟩] ⟨2, ![M, K]⟩ 1)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (ha : ∀ k : Fin H1, ab (ix2 p k) = A (ix2 r k)) (he : ∀ k : Fin H2, eb (ix2 p k) = E (ix2 r k))
    (hwt : ∀ k : Fin H1, wt (ix2 k q) = W (ix2 ⟨k.val, by omega⟩ q))
    (hwl : ∀ k : Fin H2, wl (ix2 k q) = W (ix2 ⟨H1 + k.val, by omega⟩ q))
    (hb : bb (ix2 0 q) = b (ix1 q)) :
    addf (addf (matmul (DotDims.plain B H1 N) prec₁ (truncf ψ₁ ab g₁) (truncf ψ₂ wt g₂) (constant (F := Ideal) ⟨2, ![B, N]⟩ .f32 0x00000000#32))
               (matmul (DotDims.plain B H2 N) prec₂ (truncf ψ₃ eb g₃) (truncf ψ₄ wl g₄) (constant (F := Ideal) ⟨2, ![B, N]⟩ .f32 0x00000000#32)))
        (broadcastTo ⟨2, ![B, N]⟩ bb hbt) (ix2 p q)
      = addf (Host.dotGeneral (DotDims.plain M K N) prec'
                (concatenate (⟨2, ![M, K]⟩ : Shape) 1 [⟨(⟨2, ![M, H1]⟩ : Shape), A⟩, ⟨(⟨2, ![M, H2]⟩ : Shape), E⟩] hc) W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, addf_apply, bias_block_apply b bb hbt hb1 hb01 p r q hb, concat_dot_apply hK,
    Cert.Lib.PlainDot.matmul_plain_zero_apply, Cert.Lib.PlainDot.matmul_plain_zero_apply]
  congr 2
  · exact Finset.sum_congr rfl fun k _ => congrArg₂ (fun u v : EReal => u * v) (ha k) (hwt k)
  · exact Finset.sum_congr rfl fun k _ => congrArg₂ (fun u v : EReal => u * v) (he k) (hwl k)

end Cert.Lib.DenseLayers

end
-- ==== Proof.LibSigmoid.lean ====
/-
  The logistic function spelt with a division, on the extended reals.

  The single-precision word 0x3F800000 denotes the number one, so the quotient of that constant by
  the constant plus the exponential of the negated argument is the logistic function of the argument:
  1 / (1 + exp (-x)).
-/
import Idealize.ShloMosaic.PureOps.Ideal

namespace Cert.GruLib

open Idealize.ShloMosaic

/-- The single-precision word 0x3F800000 denotes the number one. -/
theorem ofBits_one : Ideal.ofBits .f32 0x3F800000#32 = 1 := by
  simp [Ideal.ofBits, Ideal.ieee, -EReal.coe_mul]; norm_num

/-- One over (one plus the exponential of minus x), with the ones given by their words, is the logistic function of x. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.GruLib
-- ==== Proof.LibColSlices.lean ====
/-
  A block of consecutive columns cut out of a matrix, read at an index.

  Columns o … o + C' − 1 of a matrix [R, C], as a unit-stride slice at offsets (0, o), read at (p, q) the matrix at
  (p, o + q).  General: any extents, offset and entry type.  (The twin for a block of rows is a slice at offsets
  (o, 0), read at (q, k) as the matrix at (o + q, k).)
-/
import Idealize.ShloMosaic.Lib.ValueIdx
import Idealize.ShloMosaic.Lib.Pipeline.Value

noncomputable section

namespace Cert.Lib.ColSlices

open Idealize.ShloMosaic Idealize.ShloMosaic.ValueIdx

variable {α : Type}

/-- Columns o … o + C' − 1 of a matrix [R, C], read at (p, q), are the matrix at (p, o + q). -/
theorem slice_cols_apply {R C C' o : Nat} (x : (⟨2, ![R, C]⟩ : Shape).Idx → α)
    (h : (⟨2, ![R, C]⟩ : Shape).Slices ![0, o] ⟨2, ![R, C']⟩) (p : Fin R) (q : Fin C') (hq : o + q.val < C) :
    extractStridedSlice ⟨2, ![R, C']⟩ ![0, o] x h (ix2 p q) = x (ix2 p ⟨o + q.val, hq⟩) :=
  extractStridedSlice_apply ![0, o] x h (ix2 p q) (ix2 p ⟨o + q.val, hq⟩) (fun a => by
    match a with
    | ⟨0, _⟩ => show p.val = 0 + p.val; omega
    | ⟨1, _⟩ => rfl)

end Cert.Lib.ColSlices

end
-- ==== Proof.Cell.lean ====
/-
  One step of a gated recurrent unit, entry by entry, in two spellings.

  For a node with aggregated message row a and state row x, the gate pre-activations are the two affine maps
  gi = a · Wi + bi and gh = x · Wh + bh, rows of 384 = 3 · 128 entries read as three consecutive groups of 128
  (reset, update, candidate).  Entry q of the new state is

      (1 − z) · tanh (gi[256 + q] + r · gh[256 + q]) + z · x[q],
      r = σ (gi[q] + gh[q]),   z = σ (gi[128 + q] + gh[128 + q]),   σ t = 1 / (1 + exp (−t)).

  The vector unit computes this on a block of rows — the products on the matrix unit from operands narrowed to a
  smaller float format, into a zero accumulator, σ as one operation; the host computes it on the whole array — σ
  spelt as the quotient 1 / (1 + exp (−t)).  On the extended reals the two are the same function of the
  same entries: a change of float format is the identity, a product into the zero accumulator is the plain sum over
  the contraction index, and the quotient is σ.  No finiteness is needed: nothing is distributed or cancelled.
-/
import proofs.«116273_j44220983279938_1_alg».proof.Proof.LibDenseLayers
import proofs.«116273_j44220983279938_1_alg».proof.Proof.LibSigmoid
import proofs.«116273_j44220983279938_1_alg».proof.Proof.LibColSlices
import Idealize.ShloMosaic.Lib.ValueIdx
import Idealize.ShloMosaic.Lib.Pipeline.Value
import Idealize.ShloMosaic.PureOps.Ideal.Laws

noncomputable section

namespace Cert.Gnn

open Idealize.ShloMosaic Idealize.ShloMosaic.ValueIdx

/-! ## Pointwise operations read at an index -/

section Pointwise
variable {s : Shape} {φ : FTy}
theorem logistic_apply (a : FVec Ideal s φ) (i : s.Idx) : logistic a i = Ideal.logistic (a i) := rfl
theorem tanh_apply (a : FVec Ideal s φ) (i : s.Idx) : tanh a i = Ideal.tanh (a i) := rfl
theorem hostTanh_apply (a : FVec Ideal s φ) (i : s.Idx) : Host.tanh a i = Ideal.tanh (a i) := rfl
theorem hostDivf_apply (a b : FVec Ideal s φ) (i : s.Idx) : Host.divf a b i = Ideal.div (a i) (b i) := rfl
theorem hostExp_apply (a : FVec Ideal s φ) (i : s.Idx) : Host.exp a i = Ideal.exp (a i) := rfl
theorem hostNegf_apply (a : FVec Ideal s φ) (i : s.Idx) : Host.negf a i = -(a i) := rfl
end Pointwise

/-- Group o of a row of gate pre-activations, read at (p, q): the row's entry o + q. -/
theorem gate_at {R o : Nat} (g : FVec Ideal ⟨2, ![R, 384]⟩ .f32)
    (h : (⟨2, ![R, 384]⟩ : Shape).Slices ![0, o] ⟨2, ![R, 128]⟩) (p : Fin R) (q : Fin 128) (hq : o + q.val < 384) :
    extractStridedSlice ⟨2, ![R, 128]⟩ ![0, o] g h (ix2 p q) = g (ix2 p ⟨o + q.val, hq⟩) :=
  Cert.Lib.ColSlices.slice_cols_apply g h p q hq

/-! ## The update of one entry -/

/-- The new state entry from the six gate pre-activations (reset, update, candidate of the message side, then of the
    state side) and the old state entry. -/
def cell (ir iz ic hr hz hc x : EReal) : EReal :=
  (Ideal.ofBits .f32 0x3F800000#32 - Ideal.logistic (iz + hz)) * Ideal.tanh (ic + Ideal.logistic (ir + hr) * hc)
    + Ideal.logistic (iz + hz) * x

/-! ## The vector unit's spelling, on a block of rows -/

/-- The gate chain of the vector unit on a block of B rows, from the two pre-activation blocks and the state block. -/
def cellV {B : Nat} (gi gh : FVec Ideal ⟨2, ![B, 384]⟩ .f32) (x : FVec Ideal ⟨2, ![B, 128]⟩ .f32)
    (h0 : (⟨2, ![B, 384]⟩ : Shape).Slices ![0, 0] ⟨2, ![B, 128]⟩)
    (h1 : (⟨2, ![B, 384]⟩ : Shape).Slices ![0, 128] ⟨2, ![B, 128]⟩)
    (h2 : (⟨2, ![B, 384]⟩ : Shape).Slices ![0, 256] ⟨2, ![B, 128]⟩) : FVec Ideal ⟨2, ![B, 128]⟩ .f32 :=
  addf
    (mulf
      (subf (broadcast ⟨2, ![B, 128]⟩ (Scalar.ofBits (F := Ideal) .f32 0x3F800000#32))
        (logistic (addf (extractStridedSlice ⟨2, ![B, 128]⟩ ![0, 128] gi h1) (extractStridedSlice ⟨2, ![B, 128]⟩ ![0, 128] gh h1))))
      (tanh (addf (extractStridedSlice ⟨2, ![B, 128]⟩ ![0, 256] gi h2)
        (mulf (logistic (addf (extractStridedSlice ⟨2, ![B, 128]⟩ ![0, 0] gi h0) (extractStridedSlice ⟨2, ![B, 128]⟩ ![0, 0] gh h0)))
          (extractStridedSlice ⟨2, ![B, 128]⟩ ![0, 256] gh h2)))))
    (mulf (logistic (addf (extractStridedSlice ⟨2, ![B, 128]⟩ ![0, 128] gi h1) (extractStridedSlice ⟨2, ![B, 128]⟩ ![0, 128] gh h1))) x)

theorem cellV_apply {B : Nat} (gi gh : FVec Ideal ⟨2, ![B, 384]⟩ .f32) (x : FVec Ideal ⟨2, ![B, 128]⟩ .f32)
    (h0 : (⟨2, ![B, 384]⟩ : Shape).Slices ![0, 0] ⟨2, ![B, 128]⟩)
    (h1 : (⟨2, ![B, 384]⟩ : Shape).Slices ![0, 128] ⟨2, ![B, 128]⟩)
    (h2 : (⟨2, ![B, 384]⟩ : Shape).Slices ![0, 256] ⟨2, ![B, 128]⟩) (p : Fin B) (q : Fin 128)
    (q0 : 0 + q.val < 384) (q1 : 128 + q.val < 384) (q2 : 256 + q.val < 384) :
    cellV gi gh x h0 h1 h2 (ix2 p q)
      = cell (gi (ix2 p ⟨0 + q.val, q0⟩)) (gi (ix2 p ⟨128 + q.val, q1⟩)) (gi (ix2 p ⟨256 + q.val, q2⟩))
          (gh (ix2 p ⟨0 + q.val, q0⟩)) (gh (ix2 p ⟨128 + q.val, q1⟩)) (gh (ix2 p ⟨256 + q.val, q2⟩)) (x (ix2 p q)) := by
  unfold cellV cell
  simp only [addf_apply, mulf_apply, subf_apply, logistic_apply, tanh_apply, broadcast_apply,
    gate_at gi h0 p q q0, gate_at gi h1 p q q1, gate_at gi h2 p q q2,
    gate_at gh h0 p q q0, gate_at gh h1 p q q1, gate_at gh h2 p q q2]
  rfl

/-! ## The host's spelling, on the whole array -/

/-- The gate chain of the host on M rows, σ spelt as a quotient of the constant one. -/
def cellH {M : Nat} (GI GH : FVec Ideal ⟨2, ![M, 384]⟩ .f32) (X : FVec Ideal ⟨2, ![M, 128]⟩ .f32)
    (H0 : (⟨2, ![M, 384]⟩ : Shape).Slices ![0, 0] ⟨2, ![M, 128]⟩)
    (H1 : (⟨2, ![M, 384]⟩ : Shape).Slices ![0, 128] ⟨2, ![M, 128]⟩)
    (H2 : (⟨2, ![M, 384]⟩ : Shape).Slices ![0, 256] ⟨2, ![M, 128]⟩)
    (hb : (⟨0, ![]⟩ : Shape).BroadcastsInDim ⟨2, ![M, 128]⟩ (![] : Fin 0 → Fin 2)) : FVec Ideal ⟨2, ![M, 128]⟩ .f32 :=
  addf
    (mulf
      (subf (broadcastInDim ⟨2, ![M, 128]⟩ (![] : Fin 0 → Fin 2) hb (constant (F := Ideal) ⟨0, ![]⟩ .f32 0x3F800000#32))
        (Host.divf (broadcastInDim ⟨2, ![M, 128]⟩ (![] : Fin 0 → Fin 2) hb (constant (F := Ideal) ⟨0, ![]⟩ .f32 0x3F800000#32))
          (addf (broadcastInDim ⟨2, ![M, 128]⟩ (![] : Fin 0 → Fin 2) hb (constant (F := Ideal) ⟨0, ![]⟩ .f32 0x3F800000#32))
            (Host.exp (Host.negf (addf (extractStridedSlice ⟨2, ![M, 128]⟩ ![0, 128] GI H1) (extractStridedSlice ⟨2, ![M, 128]⟩ ![0, 128] GH H1)))))))
      (Host.tanh (addf (extractStridedSlice ⟨2, ![M, 128]⟩ ![0, 256] GI H2)
        (mulf
          (Host.divf (broadcastInDim ⟨2, ![M, 128]⟩ (![] : Fin 0 → Fin 2) hb (constant (F := Ideal) ⟨0, ![]⟩ .f32 0x3F800000#32))
            (addf (broadcastInDim ⟨2, ![M, 128]⟩ (![] : Fin 0 → Fin 2) hb (constant (F := Ideal) ⟨0, ![]⟩ .f32 0x3F800000#32))
              (Host.exp (Host.negf (addf (extractStridedSlice ⟨2, ![M, 128]⟩ ![0, 0] GI H0) (extractStridedSlice ⟨2, ![M, 128]⟩ ![0, 0] GH H0))))))
          (extractStridedSlice ⟨2, ![M, 128]⟩ ![0, 256] GH H2)))))
    (mulf
      (Host.divf (broadcastInDim ⟨2, ![M, 128]⟩ (![] : Fin 0 → Fin 2) hb (constant (F := Ideal) ⟨0, ![]⟩ .f32 0x3F800000#32))
        (addf (broadcastInDim ⟨2, ![M, 128]⟩ (![] : Fin 0 → Fin 2) hb (constant (F := Ideal) ⟨0, ![]⟩ .f32 0x3F800000#32))
          (Host.exp (Host.negf (addf (extractStridedSlice ⟨2, ![M, 128]⟩ ![0, 128] GI H1) (extractStridedSlice ⟨2, ![M, 128]⟩ ![0, 128] GH H1))))))
      X)

theorem cellH_apply {M : Nat} (GI GH : FVec Ideal ⟨2, ![M, 384]⟩ .f32) (X : FVec Ideal ⟨2, ![M, 128]⟩ .f32)
    (H0 : (⟨2, ![M, 384]⟩ : Shape).Slices ![0, 0] ⟨2, ![M, 128]⟩)
    (H1 : (⟨2, ![M, 384]⟩ : Shape).Slices ![0, 128] ⟨2, ![M, 128]⟩)
    (H2 : (⟨2, ![M, 384]⟩ : Shape).Slices ![0, 256] ⟨2, ![M, 128]⟩)
    (hb : (⟨0, ![]⟩ : Shape).BroadcastsInDim ⟨2, ![M, 128]⟩ (![] : Fin 0 → Fin 2)) (r : Fin M) (q : Fin 128)
    (q0 : 0 + q.val < 384) (q1 : 128 + q.val < 384) (q2 : 256 + q.val < 384) :
    cellH GI GH X H0 H1 H2 hb (ix2 r q)
      = cell (GI (ix2 r ⟨0 + q.val, q0⟩)) (GI (ix2 r ⟨128 + q.val, q1⟩)) (GI (ix2 r ⟨256 + q.val, q2⟩))
          (GH (ix2 r ⟨0 + q.val, q0⟩)) (GH (ix2 r ⟨128 + q.val, q1⟩)) (GH (ix2 r ⟨256 + q.val, q2⟩)) (X (ix2 r q)) := by
  unfold cellH cell
  simp only [addf_apply, mulf_apply, subf_apply, hostTanh_apply, hostDivf_apply, hostExp_apply, hostNegf_apply,
    gate_at GI H0 r q q0, gate_at GI H1 r q q1, gate_at GI H2 r q q2,
    gate_at GH H0 r q q0, gate_at GH H1 r q q1, gate_at GH H2 r q q2,
    Cert.Lib.RowBroadcast.broadcastInDim_scalar_apply _ hb (ix2 r q) (fun a => a.elim0), constant_apply,
    Cert.GruLib.div_one_add_exp_neg]

/-! ## The whole step: the two affine maps, then the gate chain -/

/-- The vector unit's step on a block of B rows: the message block a and the state block x, the two weight matrices,
    the two bias vectors. -/
def gruV {B : Nat} (a x : FVec Ideal ⟨2, ![B, 128]⟩ .f32) (wi wh : FVec Ideal ⟨2, ![128, 384]⟩ .f32)
    (bi bh : FVec Ideal ⟨1, ![384]⟩ .f32)
    (g : FTy.bf16.bits < FTy.f32.bits)
    (hsa : (⟨2, ![B, 128]⟩ : Shape).ShapeCasts ⟨2, ![B, 128]⟩)
    (hsw : (⟨2, ![128, 384]⟩ : Shape).ShapeCasts ⟨2, ![128, 384]⟩)
    (hsb : (⟨1, ![384]⟩ : Shape).ShapeCasts ⟨2, ![1, 384]⟩)
    (hbt : (⟨2, ![1, 384]⟩ : Shape).Broadcasts ⟨2, ![B, 384]⟩)
    (h0 : (⟨2, ![B, 384]⟩ : Shape).Slices ![0, 0] ⟨2, ![B, 128]⟩)
    (h1 : (⟨2, ![B, 384]⟩ : Shape).Slices ![0, 128] ⟨2, ![B, 128]⟩)
    (h2 : (⟨2, ![B, 384]⟩ : Shape).Slices ![0, 256] ⟨2, ![B, 128]⟩) : FVec Ideal ⟨2, ![B, 128]⟩ .f32 :=
  cellV
    (addf (matmul (DotDims.plain B 128 384) none (truncf .bf16 (shapeCast ⟨2, ![B, 128]⟩ a hsa) g)
        (truncf .bf16 (shapeCast ⟨2, ![128, 384]⟩ wi hsw) g) (constant (F := Ideal) ⟨2, ![B, 384]⟩ .f32 0x00000000#32))
      (broadcastTo ⟨2, ![B, 384]⟩ (shapeCast ⟨2, ![1, 384]⟩ bi hsb) hbt))
    (addf (matmul (DotDims.plain B 128 384) none (truncf .bf16 x g)
        (truncf .bf16 (shapeCast ⟨2, ![128, 384]⟩ wh hsw) g) (constant (F := Ideal) ⟨2, ![B, 384]⟩ .f32 0x00000000#32))
      (broadcastTo ⟨2, ![B, 384]⟩ (shapeCast ⟨2, ![1, 384]⟩ bh hsb) hbt))
    x h0 h1 h2

/-- The host's step on the whole arrays. -/
def gruH {M : Nat} (A X : FVec Ideal ⟨2, ![M, 128]⟩ .f32) (Wi Wh : FVec Ideal ⟨2, ![128, 384]⟩ .f32)
    (bi bh : FVec Ideal ⟨1, ![384]⟩ .f32)
    (hb1 : (⟨1, ![384]⟩ : Shape).BroadcastsInDim ⟨2, ![1, 384]⟩ (![1] : Fin 1 → Fin 2))
    (hb01 : (⟨2, ![1, 384]⟩ : Shape).BroadcastsInDim ⟨2, ![M, 384]⟩ (![0, 1] : Fin 2 → Fin 2))
    (H0 : (⟨2, ![M, 384]⟩ : Shape).Slices ![0, 0] ⟨2, ![M, 128]⟩)
    (H1 : (⟨2, ![M, 384]⟩ : Shape).Slices ![0, 128] ⟨2, ![M, 128]⟩)
    (H2 : (⟨2, ![M, 384]⟩ : Shape).Slices ![0, 256] ⟨2, ![M, 128]⟩)
    (hb : (⟨0, ![]⟩ : Shape).BroadcastsInDim ⟨2, ![M, 128]⟩ (![] : Fin 0 → Fin 2)) : FVec Ideal ⟨2, ![M, 128]⟩ .f32 :=
  cellH
    (addf (Host.dotGeneral (DotDims.plain M 128 384) none A Wi)
      (broadcastInDim ⟨2, ![M, 384]⟩ (![0, 1] : Fin 2 → Fin 2) hb01 (broadcastInDim ⟨2, ![1, 384]⟩ (![1] : Fin 1 → Fin 2) hb1 bi)))
    (addf (Host.dotGeneral (DotDims.plain M 128 384) none X Wh)
      (broadcastInDim ⟨2, ![M, 384]⟩ (![0, 1] : Fin 2 → Fin 2) hb01 (broadcastInDim ⟨2, ![1, 384]⟩ (![1] : Fin 1 → Fin 2) hb1 bh)))
    X H0 H1 H2 hb

/-- The vector unit's step on a block, read at the block-local index (p, q), is the host's step on the whole arrays
    read at (r, q), when row p of the message block and of the state block are row r of the whole arrays. -/
theorem gruV_eq_gruH {M B : Nat} (A X : FVec Ideal ⟨2, ![M, 128]⟩ .f32) (a x : FVec Ideal ⟨2, ![B, 128]⟩ .f32)
    (Wi Wh : FVec Ideal ⟨2, ![128, 384]⟩ .f32) (bi bh : FVec Ideal ⟨1, ![384]⟩ .f32)
    (g : FTy.bf16.bits < FTy.f32.bits)
    (hsa : (⟨2, ![B, 128]⟩ : Shape).ShapeCasts ⟨2, ![B, 128]⟩)
    (hsw : (⟨2, ![128, 384]⟩ : Shape).ShapeCasts ⟨2, ![128, 384]⟩)
    (hsb : (⟨1, ![384]⟩ : Shape).ShapeCasts ⟨2, ![1, 384]⟩)
    (hbt : (⟨2, ![1, 384]⟩ : Shape).Broadcasts ⟨2, ![B, 384]⟩)
    (h0 : (⟨2, ![B, 384]⟩ : Shape).Slices ![0, 0] ⟨2, ![B, 128]⟩)
    (h1 : (⟨2, ![B, 384]⟩ : Shape).Slices ![0, 128] ⟨2, ![B, 128]⟩)
    (h2 : (⟨2, ![B, 384]⟩ : Shape).Slices ![0, 256] ⟨2, ![B, 128]⟩)
    (hb1 : (⟨1, ![384]⟩ : Shape).BroadcastsInDim ⟨2, ![1, 384]⟩ (![1] : Fin 1 → Fin 2))
    (hb01 : (⟨2, ![1, 384]⟩ : Shape).BroadcastsInDim ⟨2, ![M, 384]⟩ (![0, 1] : Fin 2 → Fin 2))
    (H0 : (⟨2, ![M, 384]⟩ : Shape).Slices ![0, 0] ⟨2, ![M, 128]⟩)
    (H1 : (⟨2, ![M, 384]⟩ : Shape).Slices ![0, 128] ⟨2, ![M, 128]⟩)
    (H2 : (⟨2, ![M, 384]⟩ : Shape).Slices ![0, 256] ⟨2, ![M, 128]⟩)
    (hb : (⟨0, ![]⟩ : Shape).BroadcastsInDim ⟨2, ![M, 128]⟩ (![] : Fin 0 → Fin 2))
    (p : Fin B) (r : Fin M) (q : Fin 128)
    (ha : ∀ k : Fin 128, a (ix2 p k) = A (ix2 r k)) (hx : ∀ k : Fin 128, x (ix2 p k) = X (ix2 r k)) :
    gruV a x Wi Wh bi bh g hsa hsw hsb hbt h0 h1 h2 (ix2 p q) = gruH A X Wi Wh bi bh hb1 hb01 H0 H1 H2 hb (ix2 r q) := by
  have hq := q.isLt
  have hgi : ∀ j : Fin 384,
      addf (matmul (DotDims.plain B 128 384) none (truncf .bf16 (shapeCast ⟨2, ![B, 128]⟩ a hsa) g)
          (truncf .bf16 (shapeCast ⟨2, ![128, 384]⟩ Wi hsw) g) (constant (F := Ideal) ⟨2, ![B, 384]⟩ .f32 0x00000000#32))
        (broadcastTo ⟨2, ![B, 384]⟩ (shapeCast ⟨2, ![1, 384]⟩ bi hsb) hbt) (ix2 p j)
      = addf (Host.dotGeneral (DotDims.plain M 128 384) none A Wi)
          (broadcastInDim ⟨2, ![M, 384]⟩ (![0, 1] : Fin 2 → Fin 2) hb01
            (broadcastInDim ⟨2, ![1, 384]⟩ (![1] : Fin 1 → Fin 2) hb1 bi)) (ix2 r j) := fun j =>
    Cert.Lib.DenseLayers.affine_block_apply A Wi bi (shapeCast ⟨2, ![B, 128]⟩ a hsa) (shapeCast ⟨2, ![128, 384]⟩ Wi hsw)
      (shapeCast ⟨2, ![1, 384]⟩ bi hsb) g g none none hbt hb1 hb01 p r j
      (fun k => by rw [shapeCast_self]; exact ha k) (fun k => by rw [shapeCast_self])
      (Cert.Lib.Rows.shapeCast_vec_row_apply bi hsb j)
  have hgh : ∀ j : Fin 384,
      addf (matmul (DotDims.plain B 128 384) none (truncf .bf16 x g)
          (truncf .bf16 (shapeCast ⟨2, ![128, 384]⟩ Wh hsw) g) (constant (F := Ideal) ⟨2, ![B, 384]⟩ .f32 0x00000000#32))
        (broadcastTo ⟨2, ![B, 384]⟩ (shapeCast ⟨2, ![1, 384]⟩ bh hsb) hbt) (ix2 p j)
      = addf (Host.dotGeneral (DotDims.plain M 128 384) none X Wh)
          (broadcastInDim ⟨2, ![M, 384]⟩ (![0, 1] : Fin 2 → Fin 2) hb01
            (broadcastInDim ⟨2, ![1, 384]⟩ (![1] : Fin 1 → Fin 2) hb1 bh)) (ix2 r j) := fun j =>
    Cert.Lib.DenseLayers.affine_block_apply X Wh bh x (shapeCast ⟨2, ![128, 384]⟩ Wh hsw)
      (shapeCast ⟨2, ![1, 384]⟩ bh hsb) g g none none hbt hb1 hb01 p r j
      hx (fun k => by rw [shapeCast_self])
      (Cert.Lib.Rows.shapeCast_vec_row_apply bh hsb j)
  unfold gruV gruH
  rw [cellV_apply _ _ _ h0 h1 h2 p q (by omega) (by omega) (by omega),
    cellH_apply _ _ _ H0 H1 H2 hb r q (by omega) (by omega) (by omega)]
  simp only [hgi, hgh, hx q]

/-! ## The projection: a block of rows times the weight matrix -/

/-- A block of B rows of x, narrowed, times the narrowed weight matrix into the zero accumulator, read at the
    block-local (p, q), is the host's whole product x · w at (r, q), when row p of the block is row r of x. -/
theorem proj_block {M B K N : Nat} (X : FVec Ideal ⟨2, ![M, K]⟩ .f32) (W : FVec Ideal ⟨2, ![K, N]⟩ .f32)
    (xb : FVec Ideal ⟨2, ![B, K]⟩ .f32) (wb : FVec Ideal ⟨2, ![K, N]⟩ .f32)
    (g : FTy.bf16.bits < FTy.f32.bits) (p : Fin B) (r : Fin M) (q : Fin N)
    (hx : ∀ k : Fin K, xb (ix2 p k) = X (ix2 r k)) (hw : ∀ k : Fin K, wb (ix2 k q) = W (ix2 k q)) :
    matmul (DotDims.plain B K N) none (truncf .bf16 xb g) (truncf .bf16 wb g) (constant (F := Ideal) ⟨2, ![B, N]⟩ .f32 0x00000000#32) (ix2 p q)
      = Host.dotGeneral (DotDims.plain M K N) none X W (ix2 r q) :=
  Cert.Lib.DotBlocks.matmul_block_eq_dotGeneral none none X W (truncf .bf16 xb g) (truncf .bf16 wb g) p q r q hx hw

end Cert.Gnn

end
-- ==== Proof.Spec.lean ====
/-
  What both programs compute, as one function of the eight argument arrays.

  Three rounds of message passing on a graph with 100000 nodes (feature rows of 128) and 1600000 edges.  In round l,
  from the node states x:

    m    = x · W_l                                  (projection; W_l the l-th 128×128 slice of the weights)
    msg  = m[src] · edge weight                     (row gather at the source node, negative indices wrapped once)
    a    = segment sum of msg at the target nodes   (accumulating scatter into zeros)
    x'   = gated recurrent update of x by a         (the step of Cell.lean, with the transposed gate matrices)

  and the result is the state after the third round.  The gather, the scaling and the scatter are spelt with the
  host's own operations; they are common to both programs and are never opened.
-/
import proofs.«116273_j44220983279938_1_alg».proof.Proof.Gen.KernelIdeal
import proofs.«116273_j44220983279938_1_alg».proof.Proof.Gen.ReferenceIdeal
import proofs.«116273_j44220983279938_1_alg».proof.Proof.Cell

noncomputable section

namespace Cert.Gnn

open Cert.KernelIdeal Idealize.ShloMosaic

abbrev Feat : Type := FVec Ideal S100000x128 .f32
abbrev EdgeIdx : Type := (⟨S1600000, .i32⟩ : BufTy).Contents (Elt Ideal)
abbrev EdgeW : Type := FVec Ideal S1600000 .f32
abbrev EdgeList : Type := (⟨S2x1600000, .i32⟩ : BufTy).Contents (Elt Ideal)
abbrev Weights : Type := FVec Ideal S3x128x128 .f32
abbrev Weight : Type := FVec Ideal S128x128 .f32
abbrev GateW : Type := FVec Ideal S384x128 .f32
abbrev GateWT : Type := FVec Ideal S128x384 .f32
abbrev GateB : Type := FVec Ideal S384 .f32

/-- Row 0 of the edge list: the source nodes. -/
def srcOf (ei : EdgeList) : EdgeIdx :=
  shapeCast S1600000 (extractStridedSlice S1x1600000 ![0, 0] ei Cert.KernelIdeal.Gen.slices_S2x1600000_S1x1600000_0_0) Cert.KernelIdeal.Gen.shapeCasts_S1x1600000_S1600000
/-- Row 1 of the edge list: the target nodes. -/
def dstOf (ei : EdgeList) : EdgeIdx :=
  shapeCast S1600000 (extractStridedSlice S1x1600000 ![1, 0] ei Cert.KernelIdeal.Gen.slices_S2x1600000_S1x1600000_1_0) Cert.KernelIdeal.Gen.shapeCasts_S1x1600000_S1600000
/-- A gate matrix transposed. -/
def gateT (w : GateW) : GateWT := transpose S128x384 [1, 0] w Cert.KernelIdeal.Gen.transposes_S384x128_S128x384_1_0
/-- The three projection matrices. -/
def w0 (w : Weights) : Weight :=
  shapeCast S128x128 (extractStridedSlice S1x128x128 ![0, 0, 0] w Cert.KernelIdeal.Gen.slices_S3x128x128_S1x128x128_0_0_0) Cert.KernelIdeal.Gen.shapeCasts_S1x128x128_S128x128
def w1 (w : Weights) : Weight :=
  shapeCast S128x128 (extractStridedSlice S1x128x128 ![1, 0, 0] w Cert.KernelIdeal.Gen.slices_S3x128x128_S1x128x128_1_0_0) Cert.KernelIdeal.Gen.shapeCasts_S1x128x128_S128x128
def w2 (w : Weights) : Weight :=
  shapeCast S128x128 (extractStridedSlice S1x128x128 ![2, 0, 0] w Cert.KernelIdeal.Gen.slices_S3x128x128_S1x128x128_2_0_0) Cert.KernelIdeal.Gen.shapeCasts_S1x128x128_S128x128

/-- The projection of the node states. -/
def proj (x : Feat) (w : Weight) : Feat := Host.dotGeneral (F := Ideal) (φ₁ := .f32) (φ₂ := .f32) (DotDims.plain 100000 128 128) none x w

/-- Messages gathered at the (once wrapped) source nodes, scaled by the edge weights, summed at the target nodes. -/
def aggregate (mm : Feat) (src dst : EdgeIdx) (ew : EdgeW) : Feat :=
  Host.scatterAdd (F := Ideal) scatter_S100000x128_S1600000x1_S1600000x128_1_0_0_1
    (broadcastInDim S100000x128 ![] Cert.KernelIdeal.Gen.bcast_S_S100000x128 (constant (F := Ideal) S_ .f32 0x00000000#32))
    (broadcastInDim S1600000x1 ![0] Cert.KernelIdeal.Gen.bcast_S1600000_S1600000x1_0 dst)
    (mulf
      (Host.gather gather_S100000x128_S1600000x1_S1600000x128_1_0_n_n_0_1_1128 mm
        (broadcastInDim S1600000x1 ![0] Cert.KernelIdeal.Gen.bcast_S1600000_S1600000x1_0
          (select (cmpi .slt src (broadcastInDim S1600000 ![] Cert.KernelIdeal.Gen.bcast_S_S1600000 (constantI S_ 32 0#32)))
            (addi src (broadcastInDim S1600000 ![] Cert.KernelIdeal.Gen.bcast_S_S1600000 (constantI S_ 32 100000#32))) src)))
      (broadcastInDim S1600000x128 ![0, 1] Cert.KernelIdeal.Gen.bcast_S1600000x1_S1600000x128_0_1
        (broadcastInDim S1600000x1 ![0] Cert.KernelIdeal.Gen.bcast_S1600000_S1600000x1_0 ew)))

/-- The gated update on the whole arrays. -/
def step (a x : Feat) (wi wh : GateWT) (bi bh : GateB) : Feat :=
  gruH (M := 100000) a x wi wh bi bh Cert.ReferenceIdeal.Gen.bcast_S384_S1x384_1 Cert.ReferenceIdeal.Gen.bcast_S1x384_S100000x384_0_1
    Cert.ReferenceIdeal.Gen.slices_S100000x384_S100000x128_0_0 Cert.ReferenceIdeal.Gen.slices_S100000x384_S100000x128_0_128 Cert.ReferenceIdeal.Gen.slices_S100000x384_S100000x128_0_256
    Cert.KernelIdeal.Gen.bcast_S_S100000x128

/-- One round. -/
def layer (x : Feat) (w : Weight) (src dst : EdgeIdx) (ew : EdgeW) (wi wh : GateWT) (bi bh : GateB) : Feat :=
  step (aggregate (proj x w) src dst ew) x wi wh bi bh

/-- The three rounds, from the eight arguments. -/
def gnn (z : Feat) (ew : EdgeW) (w : Weights) (wih whh : GateW) (bih bhh : GateB) (ei : EdgeList) : Feat :=
  layer
    (layer
      (layer z (w0 w) (srcOf ei) (dstOf ei) ew (gateT wih) (gateT whh) bih bhh)
      (w1 w) (srcOf ei) (dstOf ei) ew (gateT wih) (gateT whh) bih bhh)
    (w2 w) (srcOf ei) (dstOf ei) ew (gateT wih) (gateT whh) bih bhh

end Cert.Gnn

end
-- ==== Proof.Proj4.lean ====
/-
  Projection region 4: the array its write-backs leave is the whole product.

  The grid has ten points; point t stages rows 10000 t … 10000 t + 9999 of the node features and the whole weight
  matrix, multiplies them on the matrix unit into a zero accumulator, and writes the product back as the same rows of
  the output.  The ten blocks tile the output's 100000 rows, and at the ideal values each entry of a block is the plain
  sum over the contraction index — the host's whole product at that row.  So the output array ends as the host's
  dot_general of the two arrays as the region found them.
-/
import proofs.«116273_j44220983279938_1_alg».proof.Proof.KernelIdealFrameP
import proofs.«116273_j44220983279938_1_alg».proof.Proof.Cell

set_option maxRecDepth 16384

noncomputable section

namespace Cert.Gnn.Proj4

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and output windows move down one block of rows per point, the
    weight window stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's product of a block, read at the block-local (p, q), is the whole product at (r, q) when row p of the
    block is row r of the features and the staged weights are the weights. -/
theorem pay_at (X : FVec Ideal S100000x128 .f32) (W : FVec Ideal S128x128 .f32)
    (x0 : Vec Ideal S10000x128 .f32) (x1 : Vec Ideal S128x128 .f32)
    (p : Fin 10000) (q : Fin 128) (r : Fin 100000)
    (hx : ∀ k : Fin 128, x0 (ix2 p k) = X (ix2 r k)) (hw : x1 = W) :
    k4_pay1 x0 x1 (ix2 p q) = Host.dotGeneral (F := Ideal) (φ₁ := .f32) (φ₂ := .f32) (DotDims.plain 100000 128 128) none X W (ix2 r q) := by
  subst hw
  exact Cert.Gnn.proj_block (M := 100000) (B := 10000) (K := 128) (N := 128) X x1 (shapeCast S10000x128 x0 shapeCasts_S10000x128_S10000x128)
    (shapeCast S128x128 x1 shapeCasts_S128x128_S128x128) bitsLt_bf16_f32 p r q (fun k => by rw [shapeCast_self]; exact hx k)
    (fun k => by rw [shapeCast_self])

/-- What point t writes back is block t of the whole product. -/
theorem flushed (c : Dev nD) (t : Fin cfg4.N) :
    (dat4 (F := Ideal) V c).flushed 2 t = ((cfg4.win 2).blk t).view.read (Elt Ideal)
      (Host.dotGeneral (F := Ideal) (φ₁ := .f32) (φ₂ := .f32) (DotDims.plain 100000 128 128) none (V c main_v39) (V c main_v41)) := by
  show (cfg4.win 2).cut (grid4.coords t) ((dat4 V c).after 2 t) = _
  rw [after4_2]
  unfold out4_2
  rw [View.canon_unit_zero hz]
  simp only [View.ld_unit_zero (S := S10000x128) hz, View.ld_unit_zero (S := S128x128) hz]
  obtain ⟨e0, e1, e2, e3, e4, e5⟩ := idx_facts t
  have ht : t.val < 10 := lt_of_lt_of_eq t.isLt N_4
  funext j
  obtain ⟨p, q, rfl⟩ : ∃ (p : Fin 10000) (q : Fin 128), j = ix2 p q := ⟨j 0, j 1, eq_ix2 j⟩
  have hp := p.isLt
  have hr : t.val * 10000 + p.val < 100000 := by omega
  have hemb : ((cfg4.win 2).blk t).view.emb (ix2 p q) = ix2 (⟨t.val * 10000 + p.val, hr⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 128 + 1 * q.val = q.val; omega
  show k4_pay1 (iblk4 V c 0 t) (iblk4 V c 1 t) (ix2 p q)
    = Host.dotGeneral (F := Ideal) (φ₁ := .f32) (φ₂ := .f32) (DotDims.plain 100000 128 128) none (V c main_v39) (V c main_v41) (((cfg4.win 2).blk t).view.emb (ix2 p q))
  rw [hemb]
  refine pay_at (V c main_v39) (V c main_v41) (iblk4 V c 0 t) (iblk4 V c 1 t) p q ⟨t.val * 10000 + p.val, hr⟩ (fun k => ?_) ?_
  · show V c main_v39 (((cfg4.win 0).blk t).view.emb (ix2 p k)) = V c main_v39 (ix2 (⟨t.val * 10000 + p.val, hr⟩ : Fin 100000) k)
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 128 + 1 * k.val = k.val; omega
  · funext y
    show V c main_v41 (((cfg4.win 1).blk t).view.emb y) = V c main_v41 y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega

/-- An index of the output is in point t's block iff each coordinate is in the block's range on its axis. -/
theorem mem_blk (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v42).slice (win4_2.rect t)).set ↔ _
  rw [View.set_slice_whole, Rect.mem_set_unit]
  exact Iff.rfl

/-- Every row of the output is in the block of the point row / 10000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hlt : (i 0).val / 10000 < 10 := by omega
  refine ⟨⟨(i 0).val / 10000, lt_of_lt_of_eq hlt N_4.symm⟩, flush4_2 _, ?_⟩
  obtain ⟨e0, e1, e2, e3, e4, e5⟩ := idx_facts ⟨(i 0).val / 10000, lt_of_lt_of_eq hlt N_4.symm⟩
  have e4' : win4_2.index ⟨(i 0).val / 10000, lt_of_lt_of_eq hlt N_4.symm⟩ (0 : Fin 2) = (i 0).val / 10000 := e4
  rw [mem_blk]
  intro a
  match a with
  | ⟨0, _⟩ =>
    show win4_2.index ⟨(i 0).val / 10000, lt_of_lt_of_eq hlt N_4.symm⟩ (0 : Fin 2) * 10000 ≤ (i 0).val
      ∧ (i 0).val < win4_2.index ⟨(i 0).val / 10000, lt_of_lt_of_eq hlt N_4.symm⟩ (0 : Fin 2) * 10000 + 10000
    omega
  | ⟨1, _⟩ =>
    show win4_2.index ⟨(i 0).val / 10000, lt_of_lt_of_eq hlt N_4.symm⟩ (1 : Fin 2) * 128 ≤ (i 1).val
      ∧ (i 1).val < win4_2.index ⟨(i 0).val / 10000, lt_of_lt_of_eq hlt N_4.symm⟩ (1 : Fin 2) * 128 + 128
    omega

/-- The output array after the region: the whole product of the features and the weights as the region found them. -/
theorem final (c : Dev nD) :
    (dat4 (F := Ideal) V c).arrAt 2 cfg4.N
      = Host.dotGeneral (F := Ideal) (φ₁ := .f32) (φ₂ := .f32) (DotDims.plain 100000 128 128) none (V c main_v39) (V c main_v41) :=
  (dat4 V c).arrAt_eq_of_cover 2 _ (fun t _ => flushed V c t) cover

end Cert.Gnn.Proj4

end
-- ==== Proof.Gru5.lean ====
/-
  Recurrent-unit region 5: the array its write-backs leave is the host's whole step.

  The grid has fifty points; point t stages rows 2000 t … 2000 t + 1999 of the aggregated messages and of the node
  states, the two whole weight matrices and the two whole bias vectors, runs the gated update on the block, and writes
  it back as the same rows of the output.  The fifty blocks tile the output's 100000 rows, and at the ideal values an
  entry of a block is the host's gated update of the whole arrays at that row.  So the output array ends as the host's
  step of the arrays as the region found them.
-/
import proofs.«116273_j44220983279938_1_alg».proof.Proof.KernelIdealFrameP
import proofs.«116273_j44220983279938_1_alg».proof.Proof.Cell

set_option maxRecDepth 16384

noncomputable section

namespace Cert.Gnn.Gru5

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the message, state and output windows move down one block of rows per
    point; the weight and bias windows stay. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0 ∧ win5_5.index t (0 : Fin 1) = 0
    ∧ win5_6.index t (0 : Fin 2) = t.val ∧ win5_6.index t (1 : Fin 2) = 0 :=
  (by decide +kernel : ∀ t : Fin grid5.N, _)

/-- The body's update of a block, read at the block-local (p, q), is the host's step at (r, q) when row p of the
    message block and of the state block are row r of the whole arrays and the staged weights and biases are the whole
    ones. -/
theorem pay_at (A X : FVec Ideal S100000x128 .f32) (Wi Wh : FVec Ideal S128x384 .f32) (bi bh : FVec Ideal S384 .f32)
    (v0 v2 : Vec Ideal S2000x128 .f32) (v5 v8 : Vec Ideal S128x384 .f32) (v12 v17 : Vec Ideal S384 .f32)
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (p : Fin 2000) (q : Fin 128) (r : Fin 100000)
    (ha : ∀ k : Fin 128, v0 (ix2 p k) = A (ix2 r k)) (hx : ∀ k : Fin 128, v2 (ix2 p k) = X (ix2 r k))
    (h5 : v5 = Wi) (h8 : v8 = Wh) (h12 : v12 = bi) (h17 : v17 = bh) :
    k5_pay1 v0 v2 v5 v8 v12 v17 (ix2 p q) = Cert.Gnn.gruH (M := 100000) A X Wi Wh bi bh hb1 hb01 H0 H1 H2 hb (ix2 r q) := by
  subst h5 h8 h12 h17
  exact Cert.Gnn.gruV_eq_gruH (M := 100000) (B := 2000) A X v0 (shapeCast S2000x128 v2 shapeCasts_S2000x128_S2000x128) v5 v8 v12 v17 bitsLt_bf16_f32
    shapeCasts_S2000x128_S2000x128 shapeCasts_S128x384_S128x384 shapeCasts_S384_S1x384 broadcasts_S1x384_S2000x384
    slices_S2000x384_o0_0_S2000x128 slices_S2000x384_o0_128_S2000x128 slices_S2000x384_o0_256_S2000x128
    hb1 hb01 H0 H1 H2 hb p r q ha (fun k => by rw [shapeCast_self]; exact hx k)

/-- What point t writes back is block t of the host's step. -/
theorem flushed
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (c : Dev nD) (t : Fin cfg5.N) :
    (dat5 (F := Ideal) V c).flushed 6 t = ((cfg5.win 6).blk t).view.read (Elt Ideal)
      (Cert.Gnn.gruH (M := 100000) (V c main_v55) (V c main_v39) (V c main_v4) (V c main_v5) (V c main_arg5) (V c main_arg6) hb1 hb01 H0 H1 H2 hb) := by
  show (cfg5.win 6).cut (grid5.coords t) ((dat5 V c).after 6 t) = _
  rw [after5_6]
  unfold out5_6
  rw [View.canon_unit_zero hz]
  simp only [View.ld_unit_zero (S := S2000x128) hz, View.ld_unit_zero (S := S128x384) hz, View.ld_unit_zero (S := S384) hz1]
  obtain ⟨e0, e1, e2, e3, e4, e5, e6, e7, e8, e9, e10, e11⟩ := idx_facts t
  have ht : t.val < 50 := lt_of_lt_of_eq t.isLt N_5
  funext j
  obtain ⟨p, q, rfl⟩ : ∃ (p : Fin 2000) (q : Fin 128), j = ix2 p q := ⟨j 0, j 1, eq_ix2 j⟩
  have hp := p.isLt
  have hr : t.val * 2000 + p.val < 100000 := by omega
  have hemb : ((cfg5.win 6).blk t).view.emb (ix2 p q) = ix2 (⟨t.val * 2000 + p.val, hr⟩ : Fin 100000) q := by
    funext a; apply Fin.ext
    match a with
    | ⟨0, _⟩ => show win5_6.index t (0 : Fin 2) * 2000 + 1 * p.val = t.val * 2000 + p.val; omega
    | ⟨1, _⟩ => show win5_6.index t (1 : Fin 2) * 128 + 1 * q.val = q.val; omega
  show k5_pay1 (iblk5 V c 0 t) (iblk5 V c 1 t) (iblk5 V c 2 t) (iblk5 V c 3 t) (iblk5 V c 4 t) (iblk5 V c 5 t) (ix2 p q)
    = (Cert.Gnn.gruH (M := 100000) (V c main_v55) (V c main_v39) (V c main_v4) (V c main_v5) (V c main_arg5) (V c main_arg6) hb1 hb01 H0 H1 H2 hb) (((cfg5.win 6).blk t).view.emb (ix2 p q))
  rw [hemb]
  refine pay_at (V c main_v55) (V c main_v39) (V c main_v4) (V c main_v5) (V c main_arg5) (V c main_arg6)
    (iblk5 V c 0 t) (iblk5 V c 1 t) (iblk5 V c 2 t) (iblk5 V c 3 t) (iblk5 V c 4 t) (iblk5 V c 5 t)
    hb1 hb01 H0 H1 H2 hb p q ⟨t.val * 2000 + p.val, hr⟩ (fun k => ?_) (fun k => ?_) ?_ ?_ ?_ ?_
  · show V c main_v55 (((cfg5.win 0).blk t).view.emb (ix2 p k)) = V c main_v55 (ix2 (⟨t.val * 2000 + p.val, hr⟩ : Fin 100000) k)
    refine congrArg _ (funext fun a => Fin.ext ?_)
    match a with
    | ⟨0, _⟩ => show win5_0.index t (0 : Fin 2) * 2000 + 1 * p.val = t.val * 2000 + p.val; omega
    | ⟨1, _⟩ => show win5_0.index t (1 : Fin 2) * 128 + 1 * k.val = k.val; omega
  · show V c main_v39 (((cfg5.win 1).blk t).view.emb (ix2 p k)) = V c main_v39 (ix2 (⟨t.val * 2000 + p.val, hr⟩ : Fin 100000) k)
    refine congrArg _ (funext fun a => Fin.ext ?_)
    match a with
    | ⟨0, _⟩ => show win5_1.index t (0 : Fin 2) * 2000 + 1 * p.val = t.val * 2000 + p.val; omega
    | ⟨1, _⟩ => show win5_1.index t (1 : Fin 2) * 128 + 1 * k.val = k.val; omega
  · funext y
    show V c main_v4 (((cfg5.win 2).blk t).view.emb y) = V c main_v4 y
    refine congrArg _ (funext fun a => Fin.ext ?_)
    match a with
    | ⟨0, _⟩ => show win5_2.index t (0 : Fin 2) * 128 + 1 * (y 0).val = (y 0).val; omega
    | ⟨1, _⟩ => show win5_2.index t (1 : Fin 2) * 384 + 1 * (y 1).val = (y 1).val; omega
  · funext y
    show V c main_v5 (((cfg5.win 3).blk t).view.emb y) = V c main_v5 y
    refine congrArg _ (funext fun a => Fin.ext ?_)
    match a with
    | ⟨0, _⟩ => show win5_3.index t (0 : Fin 2) * 128 + 1 * (y 0).val = (y 0).val; omega
    | ⟨1, _⟩ => show win5_3.index t (1 : Fin 2) * 384 + 1 * (y 1).val = (y 1).val; omega
  · funext y
    show V c main_arg5 (((cfg5.win 4).blk t).view.emb y) = V c main_arg5 y
    refine congrArg _ (funext fun a => Fin.ext ?_)
    match a with
    | ⟨0, _⟩ => show win5_4.index t (0 : Fin 1) * 384 + 1 * (y 0).val = (y 0).val; omega
  · funext y
    show V c main_arg6 (((cfg5.win 5).blk t).view.emb y) = V c main_arg6 y
    refine congrArg _ (funext fun a => Fin.ext ?_)
    match a with
    | ⟨0, _⟩ => show win5_5.index t (0 : Fin 1) * 384 + 1 * (y 0).val = (y 0).val; omega

/-- An index of the output is in point t's block iff each coordinate is in the block's range on its axis. -/
theorem mem_blk (t : Fin cfg5.N) (i : S100000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v56).slice (win5_6.rect t)).set ↔ _
  rw [View.set_slice_whole, Rect.mem_set_unit]
  exact Iff.rfl

/-- Every row of the output is in the block of the point row / 2000. -/
theorem cover (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hlt : (i 0).val / 2000 < 50 := by omega
  refine ⟨⟨(i 0).val / 2000, lt_of_lt_of_eq hlt N_5.symm⟩, flush5_6 _, ?_⟩
  obtain ⟨e0, e1, e2, e3, e4, e5, e6, e7, e8, e9, e10, e11⟩ := idx_facts ⟨(i 0).val / 2000, lt_of_lt_of_eq hlt N_5.symm⟩
  have e10' : win5_6.index ⟨(i 0).val / 2000, lt_of_lt_of_eq hlt N_5.symm⟩ (0 : Fin 2) = (i 0).val / 2000 := e10
  rw [mem_blk]
  intro a
  match a with
  | ⟨0, _⟩ =>
    show win5_6.index ⟨(i 0).val / 2000, lt_of_lt_of_eq hlt N_5.symm⟩ (0 : Fin 2) * 2000 ≤ (i 0).val
      ∧ (i 0).val < win5_6.index ⟨(i 0).val / 2000, lt_of_lt_of_eq hlt N_5.symm⟩ (0 : Fin 2) * 2000 + 2000
    omega
  | ⟨1, _⟩ =>
    show win5_6.index ⟨(i 0).val / 2000, lt_of_lt_of_eq hlt N_5.symm⟩ (1 : Fin 2) * 128 ≤ (i 1).val
      ∧ (i 1).val < win5_6.index ⟨(i 0).val / 2000, lt_of_lt_of_eq hlt N_5.symm⟩ (1 : Fin 2) * 128 + 128
    omega

/-- The output array after the region: the host's step of the messages, states, weights and biases as the region
    found them. -/
theorem final
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (c : Dev nD) :
    (dat5 (F := Ideal) V c).arrAt 6 cfg5.N = Cert.Gnn.gruH (M := 100000) (V c main_v55) (V c main_v39) (V c main_v4) (V c main_v5) (V c main_arg5) (V c main_arg6) hb1 hb01 H0 H1 H2 hb :=
  (dat5 V c).arrAt_eq_of_cover 6 _ (fun t _ => flushed V hb1 hb01 H0 H1 H2 hb c t) cover

end Cert.Gnn.Gru5

end
-- ==== Proof.Proj2.lean ====
/-
  Projection region 2: the array its write-backs leave is the whole product.

  The grid has ten points; point t stages rows 10000 t … 10000 t + 9999 of the node features and the whole weight
  matrix, multiplies them on the matrix unit into a zero accumulator, and writes the product back as the same rows of
  the output.  The ten blocks tile the output's 100000 rows, and at the ideal values each entry of a block is the plain
  sum over the contraction index — the host's whole product at that row.  So the output array ends as the host's
  dot_general of the two arrays as the region found them.
-/
import proofs.«116273_j44220983279938_1_alg».proof.Proof.KernelIdealFrameP
import proofs.«116273_j44220983279938_1_alg».proof.Proof.Cell

set_option maxRecDepth 16384

noncomputable section

namespace Cert.Gnn.Proj2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and output windows move down one block of rows per point, the
    weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product of a block, read at the block-local (p, q), is the whole product at (r, q) when row p of the
    block is row r of the features and the staged weights are the weights. -/
theorem pay_at (X : FVec Ideal S100000x128 .f32) (W : FVec Ideal S128x128 .f32)
    (x0 : Vec Ideal S10000x128 .f32) (x1 : Vec Ideal S128x128 .f32)
    (p : Fin 10000) (q : Fin 128) (r : Fin 100000)
    (hx : ∀ k : Fin 128, x0 (ix2 p k) = X (ix2 r k)) (hw : x1 = W) :
    k2_pay1 x0 x1 (ix2 p q) = Host.dotGeneral (F := Ideal) (φ₁ := .f32) (φ₂ := .f32) (DotDims.plain 100000 128 128) none X W (ix2 r q) := by
  subst hw
  exact Cert.Gnn.proj_block (M := 100000) (B := 10000) (K := 128) (N := 128) X x1 (shapeCast S10000x128 x0 shapeCasts_S10000x128_S10000x128)
    (shapeCast S128x128 x1 shapeCasts_S128x128_S128x128) bitsLt_bf16_f32 p r q (fun k => by rw [shapeCast_self]; exact hx k)
    (fun k => by rw [shapeCast_self])

/-- What point t writes back is block t of the whole product. -/
theorem flushed (c : Dev nD) (t : Fin cfg2.N) :
    (dat2 (F := Ideal) V c).flushed 2 t = ((cfg2.win 2).blk t).view.read (Elt Ideal)
      (Host.dotGeneral (F := Ideal) (φ₁ := .f32) (φ₂ := .f32) (DotDims.plain 100000 128 128) none (V c main_v22) (V c main_v24)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx_facts t
  have ht : t.val < 10 := lt_of_lt_of_eq t.isLt N_2
  funext j
  obtain ⟨p, q, rfl⟩ : ∃ (p : Fin 10000) (q : Fin 128), j = ix2 p q := ⟨j 0, j 1, eq_ix2 j⟩
  have hp := p.isLt
  have hr : t.val * 10000 + p.val < 100000 := by omega
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  show k2_pay1 (iblk2 V c 0 t) (iblk2 V c 1 t) (ix2 p q)
    = Host.dotGeneral (F := Ideal) (φ₁ := .f32) (φ₂ := .f32) (DotDims.plain 100000 128 128) none (V c main_v22) (V c main_v24) (((cfg2.win 2).blk t).view.emb (ix2 p q))
  rw [hemb]
  refine pay_at (V c main_v22) (V c main_v24) (iblk2 V c 0 t) (iblk2 V c 1 t) p q ⟨t.val * 10000 + p.val, hr⟩ (fun k => ?_) ?_
  · show V c main_v22 (((cfg2.win 0).blk t).view.emb (ix2 p k)) = V c main_v22 (ix2 (⟨t.val * 10000 + p.val, hr⟩ : Fin 100000) k)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  · funext y
    show V c main_v24 (((cfg2.win 1).blk t).view.emb y) = V c main_v24 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega

/-- An index of the output is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v25).slice (win2_2.rect t)).set ↔ _
  rw [View.set_slice_whole, Rect.mem_set_unit]
  exact Iff.rfl

/-- Every row of the output is in the block of the point row / 10000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 10000 < 10 := by omega
  refine ⟨⟨(i 0).val / 10000, lt_of_lt_of_eq hlt N_2.symm⟩, flush2_2 _, ?_⟩
  obtain ⟨e0, e1, e2, e3, e4, e5⟩ := idx_facts ⟨(i 0).val / 10000, lt_of_lt_of_eq hlt N_2.symm⟩
  have e4' : win2_2.index ⟨(i 0).val / 10000, lt_of_lt_of_eq hlt N_2.symm⟩ (0 : Fin 2) = (i 0).val / 10000 := e4
  rw [mem_blk]
  intro a
  match a with
  | ⟨0, _⟩ =>
    show win2_2.index ⟨(i 0).val / 10000, lt_of_lt_of_eq hlt N_2.symm⟩ (0 : Fin 2) * 10000 ≤ (i 0).val
      ∧ (i 0).val < win2_2.index ⟨(i 0).val / 10000, lt_of_lt_of_eq hlt N_2.symm⟩ (0 : Fin 2) * 10000 + 10000
    omega
  | ⟨1, _⟩ =>
    show win2_2.index ⟨(i 0).val / 10000, lt_of_lt_of_eq hlt N_2.symm⟩ (1 : Fin 2) * 128 ≤ (i 1).val
      ∧ (i 1).val < win2_2.index ⟨(i 0).val / 10000, lt_of_lt_of_eq hlt N_2.symm⟩ (1 : Fin 2) * 128 + 128
    omega

/-- The output array after the region: the whole product of the features and the weights as the region found them. -/
theorem final (c : Dev nD) :
    (dat2 (F := Ideal) V c).arrAt 2 cfg2.N
      = Host.dotGeneral (F := Ideal) (φ₁ := .f32) (φ₂ := .f32) (DotDims.plain 100000 128 128) none (V c main_v22) (V c main_v24) :=
  (dat2 V c).arrAt_eq_of_cover 2 _ (fun t _ => flushed V c t) cover

end Cert.Gnn.Proj2

end
-- ==== Proof.Gru3.lean ====
/-
  Recurrent-unit region 3: the array its write-backs leave is the host's whole step.

  The grid has fifty points; point t stages rows 2000 t … 2000 t + 1999 of the aggregated messages and of the node
  states, the two whole weight matrices and the two whole bias vectors, runs the gated update on the block, and writes
  it back as the same rows of the output.  The fifty blocks tile the output's 100000 rows, and at the ideal values an
  entry of a block is the host's gated update of the whole arrays at that row.  So the output array ends as the host's
  step of the arrays as the region found them.
-/
import proofs.«116273_j44220983279938_1_alg».proof.Proof.KernelIdealFrameP
import proofs.«116273_j44220983279938_1_alg».proof.Proof.Cell

set_option maxRecDepth 16384

noncomputable section

namespace Cert.Gnn.Gru3

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the message, state and output windows move down one block of rows per
    point; the weight and bias windows stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0 ∧ win3_5.index t (0 : Fin 1) = 0
    ∧ win3_6.index t (0 : Fin 2) = t.val ∧ win3_6.index t (1 : Fin 2) = 0 :=
  (by decide +kernel : ∀ t : Fin grid3.N, _)

/-- The body's update of a block, read at the block-local (p, q), is the host's step at (r, q) when row p of the
    message block and of the state block are row r of the whole arrays and the staged weights and biases are the whole
    ones. -/
theorem pay_at (A X : FVec Ideal S100000x128 .f32) (Wi Wh : FVec Ideal S128x384 .f32) (bi bh : FVec Ideal S384 .f32)
    (v0 v2 : Vec Ideal S2000x128 .f32) (v5 v8 : Vec Ideal S128x384 .f32) (v12 v17 : Vec Ideal S384 .f32)
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (p : Fin 2000) (q : Fin 128) (r : Fin 100000)
    (ha : ∀ k : Fin 128, v0 (ix2 p k) = A (ix2 r k)) (hx : ∀ k : Fin 128, v2 (ix2 p k) = X (ix2 r k))
    (h5 : v5 = Wi) (h8 : v8 = Wh) (h12 : v12 = bi) (h17 : v17 = bh) :
    k3_pay1 v0 v2 v5 v8 v12 v17 (ix2 p q) = Cert.Gnn.gruH (M := 100000) A X Wi Wh bi bh hb1 hb01 H0 H1 H2 hb (ix2 r q) := by
  subst h5 h8 h12 h17
  exact Cert.Gnn.gruV_eq_gruH (M := 100000) (B := 2000) A X v0 (shapeCast S2000x128 v2 shapeCasts_S2000x128_S2000x128) v5 v8 v12 v17 bitsLt_bf16_f32
    shapeCasts_S2000x128_S2000x128 shapeCasts_S128x384_S128x384 shapeCasts_S384_S1x384 broadcasts_S1x384_S2000x384
    slices_S2000x384_o0_0_S2000x128 slices_S2000x384_o0_128_S2000x128 slices_S2000x384_o0_256_S2000x128
    hb1 hb01 H0 H1 H2 hb p r q ha (fun k => by rw [shapeCast_self]; exact hx k)

/-- What point t writes back is block t of the host's step. -/
theorem flushed
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (c : Dev nD) (t : Fin cfg3.N) :
    (dat3 (F := Ideal) V c).flushed 6 t = ((cfg3.win 6).blk t).view.read (Elt Ideal)
      (Cert.Gnn.gruH (M := 100000) (V c main_v38) (V c main_v22) (V c main_v4) (V c main_v5) (V c main_arg5) (V c main_arg6) hb1 hb01 H0 H1 H2 hb) := by
  show (cfg3.win 6).cut (grid3.coords t) ((dat3 V c).after 6 t) = _
  rw [after3_6]
  unfold out3_6
  rw [View.canon_unit_zero hz]
  simp only [View.ld_unit_zero (S := S2000x128) hz, View.ld_unit_zero (S := S128x384) hz, View.ld_unit_zero (S := S384) hz1]
  obtain ⟨e0, e1, e2, e3, e4, e5, e6, e7, e8, e9, e10, e11⟩ := idx_facts t
  have ht : t.val < 50 := lt_of_lt_of_eq t.isLt N_3
  funext j
  obtain ⟨p, q, rfl⟩ : ∃ (p : Fin 2000) (q : Fin 128), j = ix2 p q := ⟨j 0, j 1, eq_ix2 j⟩
  have hp := p.isLt
  have hr : t.val * 2000 + p.val < 100000 := by omega
  have hemb : ((cfg3.win 6).blk t).view.emb (ix2 p q) = ix2 (⟨t.val * 2000 + p.val, hr⟩ : Fin 100000) q := by
    funext a; apply Fin.ext
    match a with
    | ⟨0, _⟩ => show win3_6.index t (0 : Fin 2) * 2000 + 1 * p.val = t.val * 2000 + p.val; omega
    | ⟨1, _⟩ => show win3_6.index t (1 : Fin 2) * 128 + 1 * q.val = q.val; omega
  show k3_pay1 (iblk3 V c 0 t) (iblk3 V c 1 t) (iblk3 V c 2 t) (iblk3 V c 3 t) (iblk3 V c 4 t) (iblk3 V c 5 t) (ix2 p q)
    = (Cert.Gnn.gruH (M := 100000) (V c main_v38) (V c main_v22) (V c main_v4) (V c main_v5) (V c main_arg5) (V c main_arg6) hb1 hb01 H0 H1 H2 hb) (((cfg3.win 6).blk t).view.emb (ix2 p q))
  rw [hemb]
  refine pay_at (V c main_v38) (V c main_v22) (V c main_v4) (V c main_v5) (V c main_arg5) (V c main_arg6)
    (iblk3 V c 0 t) (iblk3 V c 1 t) (iblk3 V c 2 t) (iblk3 V c 3 t) (iblk3 V c 4 t) (iblk3 V c 5 t)
    hb1 hb01 H0 H1 H2 hb p q ⟨t.val * 2000 + p.val, hr⟩ (fun k => ?_) (fun k => ?_) ?_ ?_ ?_ ?_
  · show V c main_v38 (((cfg3.win 0).blk t).view.emb (ix2 p k)) = V c main_v38 (ix2 (⟨t.val * 2000 + p.val, hr⟩ : Fin 100000) k)
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * k.val = k.val; omega
  · show V c main_v22 (((cfg3.win 1).blk t).view.emb (ix2 p k)) = V c main_v22 (ix2 (⟨t.val * 2000 + p.val, hr⟩ : Fin 100000) k)
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * k.val = k.val; omega
  · funext y
    show V c main_v4 (((cfg3.win 2).blk t).view.emb y) = V c main_v4 y
    refine congrArg _ (funext fun a => Fin.ext ?_)
    match a with
    | ⟨0, _⟩ => show win3_2.index t (0 : Fin 2) * 128 + 1 * (y 0).val = (y 0).val; omega
    | ⟨1, _⟩ => show win3_2.index t (1 : Fin 2) * 384 + 1 * (y 1).val = (y 1).val; omega
  · funext y
    show V c main_v5 (((cfg3.win 3).blk t).view.emb y) = V c main_v5 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 384 + 1 * (y 1).val = (y 1).val; omega
  · funext y
    show V c main_arg5 (((cfg3.win 4).blk t).view.emb y) = V c main_arg5 y
    refine congrArg _ (funext fun a => Fin.ext ?_)
    match a with
    | ⟨0, _⟩ => show win3_4.index t (0 : Fin 1) * 384 + 1 * (y 0).val = (y 0).val; omega
  · funext y
    show V c main_arg6 (((cfg3.win 5).blk t).view.emb y) = V c main_arg6 y
    refine congrArg _ (funext fun a => Fin.ext ?_)
    match a with
    | ⟨0, _⟩ => show win3_5.index t (0 : Fin 1) * 384 + 1 * (y 0).val = (y 0).val; omega

/-- An index of the output is in point t's block iff each coordinate is in the block's range on its axis. -/
theorem mem_blk (t : Fin cfg3.N) (i : S100000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v39).slice (win3_6.rect t)).set ↔ _
  rw [View.set_slice_whole, Rect.mem_set_unit]
  exact Iff.rfl

/-- Every row of the output is in the block of the point row / 2000. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hlt : (i 0).val / 2000 < 50 := by omega
  refine ⟨⟨(i 0).val / 2000, lt_of_lt_of_eq hlt N_3.symm⟩, flush3_6 _, ?_⟩
  obtain ⟨e0, e1, e2, e3, e4, e5, e6, e7, e8, e9, e10, e11⟩ := idx_facts ⟨(i 0).val / 2000, lt_of_lt_of_eq hlt N_3.symm⟩
  have e10' : win3_6.index ⟨(i 0).val / 2000, lt_of_lt_of_eq hlt N_3.symm⟩ (0 : Fin 2) = (i 0).val / 2000 := e10
  rw [mem_blk]
  intro a
  match a with
  | ⟨0, _⟩ =>
    show win3_6.index ⟨(i 0).val / 2000, lt_of_lt_of_eq hlt N_3.symm⟩ (0 : Fin 2) * 2000 ≤ (i 0).val
      ∧ (i 0).val < win3_6.index ⟨(i 0).val / 2000, lt_of_lt_of_eq hlt N_3.symm⟩ (0 : Fin 2) * 2000 + 2000
    omega
  | ⟨1, _⟩ =>
    show win3_6.index ⟨(i 0).val / 2000, lt_of_lt_of_eq hlt N_3.symm⟩ (1 : Fin 2) * 128 ≤ (i 1).val
      ∧ (i 1).val < win3_6.index ⟨(i 0).val / 2000, lt_of_lt_of_eq hlt N_3.symm⟩ (1 : Fin 2) * 128 + 128
    omega

/-- The output array after the region: the host's step of the messages, states, weights and biases as the region
    found them. -/
theorem final
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (c : Dev nD) :
    (dat3 (F := Ideal) V c).arrAt 6 cfg3.N = Cert.Gnn.gruH (M := 100000) (V c main_v38) (V c main_v22) (V c main_v4) (V c main_v5) (V c main_arg5) (V c main_arg6) hb1 hb01 H0 H1 H2 hb :=
  (dat3 V c).arrAt_eq_of_cover 6 _ (fun t _ => flushed V hb1 hb01 H0 H1 H2 hb c t) cover

end Cert.Gnn.Gru3

end
-- ==== Proof.Proj0.lean ====
/-
  Projection region 0: the array its write-backs leave is the whole product.

  The grid has ten points; point t stages rows 10000 t … 10000 t + 9999 of the node features and the whole weight
  matrix, multiplies them on the matrix unit into a zero accumulator, and writes the product back as the same rows of
  the output.  The ten blocks tile the output's 100000 rows, and at the ideal values each entry of a block is the plain
  sum over the contraction index — the host's whole product at that row.  So the output array ends as the host's
  dot_general of the two arrays as the region found them.
-/
import proofs.«116273_j44220983279938_1_alg».proof.Proof.KernelIdealFrameP
import proofs.«116273_j44220983279938_1_alg».proof.Proof.Cell

set_option maxRecDepth 16384

noncomputable section

namespace Cert.Gnn.Proj0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and output windows move down one block of rows per point, the
    weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product of a block, read at the block-local (p, q), is the whole product at (r, q) when row p of the
    block is row r of the features and the staged weights are the weights. -/
theorem pay_at (X : FVec Ideal S100000x128 .f32) (W : FVec Ideal S128x128 .f32)
    (x0 : Vec Ideal S10000x128 .f32) (x1 : Vec Ideal S128x128 .f32)
    (p : Fin 10000) (q : Fin 128) (r : Fin 100000)
    (hx : ∀ k : Fin 128, x0 (ix2 p k) = X (ix2 r k)) (hw : x1 = W) :
    k0_pay1 x0 x1 (ix2 p q) = Host.dotGeneral (F := Ideal) (φ₁ := .f32) (φ₂ := .f32) (DotDims.plain 100000 128 128) none X W (ix2 r q) := by
  subst hw
  exact Cert.Gnn.proj_block (M := 100000) (B := 10000) (K := 128) (N := 128) X x1 x0
    (shapeCast S128x128 x1 shapeCasts_S128x128_S128x128) bitsLt_bf16_f32 p r q hx
    (fun k => by rw [shapeCast_self])

/-- What point t writes back is block t of the whole product. -/
theorem flushed (c : Dev nD) (t : Fin cfg0.N) :
    (dat0 (F := Ideal) V c).flushed 2 t = ((cfg0.win 2).blk t).view.read (Elt Ideal)
      (Host.dotGeneral (F := Ideal) (φ₁ := .f32) (φ₂ := .f32) (DotDims.plain 100000 128 128) none (V c main_arg0) (V c main_v7)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  have ht : t.val < 10 := lt_of_lt_of_eq t.isLt N_0
  funext j
  obtain ⟨p, q, rfl⟩ : ∃ (p : Fin 10000) (q : Fin 128), j = ix2 p q := ⟨j 0, j 1, eq_ix2 j⟩
  have hp := p.isLt
  have hr : t.val * 10000 + p.val < 100000 := by omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show k0_pay1 (iblk0 V c 0 t) (iblk0 V c 1 t) (ix2 p q)
    = Host.dotGeneral (F := Ideal) (φ₁ := .f32) (φ₂ := .f32) (DotDims.plain 100000 128 128) none (V c main_arg0) (V c main_v7) (((cfg0.win 2).blk t).view.emb (ix2 p q))
  rw [hemb]
  refine pay_at (V c main_arg0) (V c main_v7) (iblk0 V c 0 t) (iblk0 V c 1 t) p q ⟨t.val * 10000 + p.val, hr⟩ (fun k => ?_) ?_
  · show V c main_arg0 (((cfg0.win 0).blk t).view.emb (ix2 p k)) = V c main_arg0 (ix2 (⟨t.val * 10000 + p.val, hr⟩ : Fin 100000) k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · funext y
    show V c main_v7 (((cfg0.win 1).blk t).view.emb y) = V c main_v7 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega

/-- An index of the output is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v8).slice (win0_2.rect t)).set ↔ _
  rw [View.set_slice_whole, Rect.mem_set_unit]
  exact Iff.rfl

/-- Every row of the output is in the block of the point row / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 10000 < 10 := by omega
  refine ⟨⟨(i 0).val / 10000, lt_of_lt_of_eq hlt N_0.symm⟩, flush0_2 _, ?_⟩
  obtain ⟨e0, e1, e2, e3, e4, e5⟩ := idx_facts ⟨(i 0).val / 10000, lt_of_lt_of_eq hlt N_0.symm⟩
  have e4' : win0_2.index ⟨(i 0).val / 10000, lt_of_lt_of_eq hlt N_0.symm⟩ (0 : Fin 2) = (i 0).val / 10000 := e4
  rw [mem_blk]
  intro a
  match a with
  | ⟨0, _⟩ =>
    show win0_2.index ⟨(i 0).val / 10000, lt_of_lt_of_eq hlt N_0.symm⟩ (0 : Fin 2) * 10000 ≤ (i 0).val
      ∧ (i 0).val < win0_2.index ⟨(i 0).val / 10000, lt_of_lt_of_eq hlt N_0.symm⟩ (0 : Fin 2) * 10000 + 10000
    omega
  | ⟨1, _⟩ =>
    show win0_2.index ⟨(i 0).val / 10000, lt_of_lt_of_eq hlt N_0.symm⟩ (1 : Fin 2) * 128 ≤ (i 1).val
      ∧ (i 1).val < win0_2.index ⟨(i 0).val / 10000, lt_of_lt_of_eq hlt N_0.symm⟩ (1 : Fin 2) * 128 + 128
    omega

/-- The output array after the region: the whole product of the features and the weights as the region found them. -/
theorem final (c : Dev nD) :
    (dat0 (F := Ideal) V c).arrAt 2 cfg0.N
      = Host.dotGeneral (F := Ideal) (φ₁ := .f32) (φ₂ := .f32) (DotDims.plain 100000 128 128) none (V c main_arg0) (V c main_v7) :=
  (dat0 V c).arrAt_eq_of_cover 2 _ (fun t _ => flushed V c t) cover

end Cert.Gnn.Proj0

end
-- ==== Proof.Gru1.lean ====
/-
  Recurrent-unit region 1: the array its write-backs leave is the host's whole step.

  The grid has fifty points; point t stages rows 2000 t … 2000 t + 1999 of the aggregated messages and of the node
  states, the two whole weight matrices and the two whole bias vectors, runs the gated update on the block, and writes
  it back as the same rows of the output.  The fifty blocks tile the output's 100000 rows, and at the ideal values an
  entry of a block is the host's gated update of the whole arrays at that row.  So the output array ends as the host's
  step of the arrays as the region found them.
-/
import proofs.«116273_j44220983279938_1_alg».proof.Proof.KernelIdealFrameP
import proofs.«116273_j44220983279938_1_alg».proof.Proof.Cell

set_option maxRecDepth 16384

noncomputable section

namespace Cert.Gnn.Gru1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the message, state and output windows move down one block of rows per
    point; the weight and bias windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- The body's update of a block, read at the block-local (p, q), is the host's step at (r, q) when row p of the
    message block and of the state block are row r of the whole arrays and the staged weights and biases are the whole
    ones. -/
theorem pay_at (A X : FVec Ideal S100000x128 .f32) (Wi Wh : FVec Ideal S128x384 .f32) (bi bh : FVec Ideal S384 .f32)
    (v0 v2 : Vec Ideal S2000x128 .f32) (v5 v8 : Vec Ideal S128x384 .f32) (v12 v17 : Vec Ideal S384 .f32)
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (p : Fin 2000) (q : Fin 128) (r : Fin 100000)
    (ha : ∀ k : Fin 128, v0 (ix2 p k) = A (ix2 r k)) (hx : ∀ k : Fin 128, v2 (ix2 p k) = X (ix2 r k))
    (h5 : v5 = Wi) (h8 : v8 = Wh) (h12 : v12 = bi) (h17 : v17 = bh) :
    k1_pay1 v0 v2 v5 v8 v12 v17 (ix2 p q) = Cert.Gnn.gruH (M := 100000) A X Wi Wh bi bh hb1 hb01 H0 H1 H2 hb (ix2 r q) := by
  subst h5 h8 h12 h17
  exact Cert.Gnn.gruV_eq_gruH (M := 100000) (B := 2000) A X v0 v2 v5 v8 v12 v17 bitsLt_bf16_f32
    shapeCasts_S2000x128_S2000x128 shapeCasts_S128x384_S128x384 shapeCasts_S384_S1x384 broadcasts_S1x384_S2000x384
    slices_S2000x384_o0_0_S2000x128 slices_S2000x384_o0_128_S2000x128 slices_S2000x384_o0_256_S2000x128
    hb1 hb01 H0 H1 H2 hb p r q ha hx

/-- What point t writes back is block t of the host's step. -/
theorem flushed
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (c : Dev nD) (t : Fin cfg1.N) :
    (dat1 (F := Ideal) V c).flushed 6 t = ((cfg1.win 6).blk t).view.read (Elt Ideal)
      (Cert.Gnn.gruH (M := 100000) (V c main_v21) (V c main_arg0) (V c main_v4) (V c main_v5) (V c main_arg5) (V c main_arg6) hb1 hb01 H0 H1 H2 hb) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x384) hz, View.ld_unit_zero (S := S384) hz1]
  obtain ⟨e0, e1, e2, e3, e4, e5, e6, e7, e8, e9, e10, e11⟩ := idx_facts t
  have ht : t.val < 50 := lt_of_lt_of_eq t.isLt N_1
  funext j
  obtain ⟨p, q, rfl⟩ : ∃ (p : Fin 2000) (q : Fin 128), j = ix2 p q := ⟨j 0, j 1, eq_ix2 j⟩
  have hp := p.isLt
  have hr : t.val * 2000 + p.val < 100000 := by omega
  have hemb : ((cfg1.win 6).blk t).view.emb (ix2 p q) = ix2 (⟨t.val * 2000 + p.val, hr⟩ : Fin 100000) q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  show k1_pay1 (iblk1 V c 0 t) (iblk1 V c 1 t) (iblk1 V c 2 t) (iblk1 V c 3 t) (iblk1 V c 4 t) (iblk1 V c 5 t) (ix2 p q)
    = (Cert.Gnn.gruH (M := 100000) (V c main_v21) (V c main_arg0) (V c main_v4) (V c main_v5) (V c main_arg5) (V c main_arg6) hb1 hb01 H0 H1 H2 hb) (((cfg1.win 6).blk t).view.emb (ix2 p q))
  rw [hemb]
  refine pay_at (V c main_v21) (V c main_arg0) (V c main_v4) (V c main_v5) (V c main_arg5) (V c main_arg6)
    (iblk1 V c 0 t) (iblk1 V c 1 t) (iblk1 V c 2 t) (iblk1 V c 3 t) (iblk1 V c 4 t) (iblk1 V c 5 t)
    hb1 hb01 H0 H1 H2 hb p q ⟨t.val * 2000 + p.val, hr⟩ (fun k => ?_) (fun k => ?_) ?_ ?_ ?_ ?_
  · show V c main_v21 (((cfg1.win 0).blk t).view.emb (ix2 p k)) = V c main_v21 (ix2 (⟨t.val * 2000 + p.val, hr⟩ : Fin 100000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_arg0 (((cfg1.win 1).blk t).view.emb (ix2 p k)) = V c main_arg0 (ix2 (⟨t.val * 2000 + p.val, hr⟩ : Fin 100000) k)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · funext y
    show V c main_v4 (((cfg1.win 2).blk t).view.emb y) = V c main_v4 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 384 + 1 * (y 1).val = (y 1).val; omega
  · funext y
    show V c main_v5 (((cfg1.win 3).blk t).view.emb y) = V c main_v5 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 384 + 1 * (y 1).val = (y 1).val; omega
  · funext y
    show V c main_arg5 (((cfg1.win 4).blk t).view.emb y) = V c main_arg5 y
    refine congrArg _ (funext fun a => Fin.ext ?_)
    match a with
    | ⟨0, _⟩ => show win1_4.index t (0 : Fin 1) * 384 + 1 * (y 0).val = (y 0).val; omega
  · funext y
    show V c main_arg6 (((cfg1.win 5).blk t).view.emb y) = V c main_arg6 y
    refine congrArg _ (funext fun a => Fin.ext ?_)
    match a with
    | ⟨0, _⟩ => show win1_5.index t (0 : Fin 1) * 384 + 1 * (y 0).val = (y 0).val; omega

/-- An index of the output is in point t's block iff each coordinate is in the block's range on its axis. -/
theorem mem_blk (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v22).slice (win1_6.rect t)).set ↔ _
  rw [View.set_slice_whole, Rect.mem_set_unit]
  exact Iff.rfl

/-- Every row of the output is in the block of the point row / 2000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 2000 < 50 := by omega
  refine ⟨⟨(i 0).val / 2000, lt_of_lt_of_eq hlt N_1.symm⟩, flush1_6 _, ?_⟩
  obtain ⟨e0, e1, e2, e3, e4, e5, e6, e7, e8, e9, e10, e11⟩ := idx_facts ⟨(i 0).val / 2000, lt_of_lt_of_eq hlt N_1.symm⟩
  have e10' : win1_6.index ⟨(i 0).val / 2000, lt_of_lt_of_eq hlt N_1.symm⟩ (0 : Fin 2) = (i 0).val / 2000 := e10
  rw [mem_blk]
  intro a
  match a with
  | ⟨0, _⟩ =>
    show win1_6.index ⟨(i 0).val / 2000, lt_of_lt_of_eq hlt N_1.symm⟩ (0 : Fin 2) * 2000 ≤ (i 0).val
      ∧ (i 0).val < win1_6.index ⟨(i 0).val / 2000, lt_of_lt_of_eq hlt N_1.symm⟩ (0 : Fin 2) * 2000 + 2000
    omega
  | ⟨1, _⟩ =>
    show win1_6.index ⟨(i 0).val / 2000, lt_of_lt_of_eq hlt N_1.symm⟩ (1 : Fin 2) * 128 ≤ (i 1).val
      ∧ (i 1).val < win1_6.index ⟨(i 0).val / 2000, lt_of_lt_of_eq hlt N_1.symm⟩ (1 : Fin 2) * 128 + 128
    omega

/-- The output array after the region: the host's step of the messages, states, weights and biases as the region
    found them. -/
theorem final
    (hb1 : (⟨1, ![384]⟩ : Shape).BroadcastsInDim ⟨2, ![1, 384]⟩ (![1] : Fin 1 → Fin 2))
    (hb01 : (⟨2, ![1, 384]⟩ : Shape).BroadcastsInDim ⟨2, ![100000, 384]⟩ (![0, 1] : Fin 2 → Fin 2))
    (H0 : (⟨2, ![100000, 384]⟩ : Shape).Slices ![0, 0] ⟨2, ![100000, 128]⟩)
    (H1 : (⟨2, ![100000, 384]⟩ : Shape).Slices ![0, 128] ⟨2, ![100000, 128]⟩)
    (H2 : (⟨2, ![100000, 384]⟩ : Shape).Slices ![0, 256] ⟨2, ![100000, 128]⟩)
    (hb : (⟨0, ![]⟩ : Shape).BroadcastsInDim ⟨2, ![100000, 128]⟩ (![] : Fin 0 → Fin 2))
    (c : Dev nD) :
    (dat1 (F := Ideal) V c).arrAt 6 cfg1.N = Cert.Gnn.gruH (M := 100000) (V c main_v21) (V c main_arg0) (V c main_v4) (V c main_v5) (V c main_arg5) (V c main_arg6) hb1 hb01 H0 H1 H2 hb :=
  (dat1 V c).arrAt_eq_of_cover 6 _ (fun t _ => flushed V hb1 hb01 H0 H1 H2 hb c t) cover

end Cert.Gnn.Gru1

end
-- ==== Proof.Fold0.lean ====
/-
  The buffer contents through round 1 of the kernel's program.

  The contents at the segment boundaries are a fold from the launch memory: a host stretch applies its operations,
  a region replaces its output array by what its write-backs leave and keeps every other buffer.  Boundary by boundary
  this module says what each buffer still to be read holds, as a function of the argument arrays: a slice of the
  weights after the first stretch, the projected states after the projection region, the aggregated messages after
  the gather–scale–scatter stretch, the new states after the recurrent-unit region; the source and target node lists,
  the transposed gate matrices and the arguments are carried along unchanged.
-/
import proofs.«116273_j44220983279938_1_alg».proof.Proof.KernelIdealFrameP
import proofs.«116273_j44220983279938_1_alg».proof.Proof.Spec
import proofs.«116273_j44220983279938_1_alg».proof.Proof.Proj0
import proofs.«116273_j44220983279938_1_alg».proof.Proof.Gru1

set_option maxRecDepth 16384

noncomputable section

namespace Cert.Gnn.Fold

open Cert.KernelIdeal Cert.KernelIdeal.Gen Cert.KernelIdeal.GenP Cert.Gnn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays as launched, and the states after each round -/

abbrev aZ : Feat := m ((c : Thread nD τ).loc main_arg0)
abbrev aEW : EdgeW := m ((c : Thread nD τ).loc main_arg1)
abbrev aW : Weights := m ((c : Thread nD τ).loc main_arg2)
abbrev aWih : GateW := m ((c : Thread nD τ).loc main_arg3)
abbrev aWhh : GateW := m ((c : Thread nD τ).loc main_arg4)
abbrev aBih : GateB := m ((c : Thread nD τ).loc main_arg5)
abbrev aBhh : GateB := m ((c : Thread nD τ).loc main_arg6)
abbrev aE : EdgeList := m ((c : Thread nD τ).loc main_arg7)

/-- The node states after the first, second and third round. -/
def x1 : Feat := layer (aZ m c) (w0 (aW m c)) (srcOf (aE m c)) (dstOf (aE m c)) (aEW m c) (gateT (aWih m c)) (gateT (aWhh m c)) (aBih m c) (aBhh m c)
def x2 : Feat := layer (x1 m c) (w1 (aW m c)) (srcOf (aE m c)) (dstOf (aE m c)) (aEW m c) (gateT (aWih m c)) (gateT (aWhh m c)) (aBih m c) (aBhh m c)
def x3 : Feat := layer (x2 m c) (w2 (aW m c)) (srcOf (aE m c)) (dstOf (aE m c)) (aEW m c) (gateT (aWih m c)) (gateT (aWhh m c)) (aBih m c) (aBhh m c)

/-- The state after the third round is the specification's function of the arguments. -/
theorem x3_eq : x3 m c = gnn (aZ m c) (aEW m c) (aW m c) (aWih m c) (aWhh m c) (aBih m c) (aBhh m c) (aE m c) := rfl

/-! ## Buffers a host stretch does not write -/

/-- The buffers host stretch 0 writes. -/
abbrev hw0 : List (Ref sig .tc) := [main_v0, main_v1, main_v2, main_v3, main_v4, main_v5, main_v6, main_v7]
theorem hw0_writes : (hostOps0 : List (HloOp τ sig (Elt Ideal))).Forall fun op => op.writes ⊆ (hw0.map (Proc.devRef (τ := τ) .tc)).toFinset := by
  simp only [hostOps0, List.Forall]
  repeat' apply And.intro
  all_goals (simp only [nullary_writes, unary_writes, binary_writes, ternary_writes, reshape_writes, Finset.singleton_subset_iff, List.mem_toFinset]; exact List.mem_map_of_mem (by decide))
/-- A buffer host stretch 0 does not write keeps its contents through it. -/
theorem keep0 (W : Valuation τ sig (Elt Ideal)) (r : Ref sig .tc) (h : r ∉ hw0) :
    after hostOps0 W (Proc.devRef .tc r) = W (Proc.devRef .tc r) :=
  after_of_writes_sub hostOps0 _ hw0_writes h

/-- The buffers host stretch 1 writes. -/
abbrev hw1 : List (Ref sig .tc) := [main_c, main_v9, main_v10, main_c_0, main_v11, main_v12, main_v13, main_v14, main_v15, main_v16, main_v17, main_v18, main_cst, main_v19, main_v20, main_v21]
theorem hw1_writes : (hostOps1 : List (HloOp τ sig (Elt Ideal))).Forall fun op => op.writes ⊆ (hw1.map (Proc.devRef (τ := τ) .tc)).toFinset := by
  simp only [hostOps1, List.Forall]
  repeat' apply And.intro
  all_goals (simp only [nullary_writes, unary_writes, binary_writes, ternary_writes, reshape_writes, Finset.singleton_subset_iff, List.mem_toFinset]; exact List.mem_map_of_mem (by decide))
/-- A buffer host stretch 1 does not write keeps its contents through it. -/
theorem keep1 (W : Valuation τ sig (Elt Ideal)) (r : Ref sig .tc) (h : r ∉ hw1) :
    after hostOps1 W (Proc.devRef .tc r) = W (Proc.devRef .tc r) :=
  after_of_writes_sub hostOps1 _ hw1_writes h

/-- The buffers host stretch 2 writes. -/
abbrev hw2 : List (Ref sig .tc) := [main_v23, main_v24]
theorem hw2_writes : (hostOps2 : List (HloOp τ sig (Elt Ideal))).Forall fun op => op.writes ⊆ (hw2.map (Proc.devRef (τ := τ) .tc)).toFinset := by
  simp only [hostOps2, List.Forall]
  repeat' apply And.intro
  all_goals (simp only [nullary_writes, unary_writes, binary_writes, ternary_writes, reshape_writes, Finset.singleton_subset_iff, List.mem_toFinset]; exact List.mem_map_of_mem (by decide))
/-- A buffer host stretch 2 does not write keeps its contents through it. -/
theorem keep2 (W : Valuation τ sig (Elt Ideal)) (r : Ref sig .tc) (h : r ∉ hw2) :
    after hostOps2 W (Proc.devRef .tc r) = W (Proc.devRef .tc r) :=
  after_of_writes_sub hostOps2 _ hw2_writes h

/-- The buffers host stretch 3 writes. -/
abbrev hw3 : List (Ref sig .tc) := [main_c_1, main_v26, main_v27, main_c_2, main_v28, main_v29, main_v30, main_v31, main_v32, main_v33, main_v34, main_v35, main_cst_3, main_v36, main_v37, main_v38]
theorem hw3_writes : (hostOps3 : List (HloOp τ sig (Elt Ideal))).Forall fun op => op.writes ⊆ (hw3.map (Proc.devRef (τ := τ) .tc)).toFinset := by
  simp only [hostOps3, List.Forall]
  repeat' apply And.intro
  all_goals (simp only [nullary_writes, unary_writes, binary_writes, ternary_writes, reshape_writes, Finset.singleton_subset_iff, List.mem_toFinset]; exact List.mem_map_of_mem (by decide))
/-- A buffer host stretch 3 does not write keeps its contents through it. -/
theorem keep3 (W : Valuation τ sig (Elt Ideal)) (r : Ref sig .tc) (h : r ∉ hw3) :
    after hostOps3 W (Proc.devRef .tc r) = W (Proc.devRef .tc r) :=
  after_of_writes_sub hostOps3 _ hw3_writes h

/-- The buffers host stretch 4 writes. -/
abbrev hw4 : List (Ref sig .tc) := [main_v40, main_v41]
theorem hw4_writes : (hostOps4 : List (HloOp τ sig (Elt Ideal))).Forall fun op => op.writes ⊆ (hw4.map (Proc.devRef (τ := τ) .tc)).toFinset := by
  simp only [hostOps4, List.Forall]
  repeat' apply And.intro
  all_goals (simp only [nullary_writes, unary_writes, binary_writes, ternary_writes, reshape_writes, Finset.singleton_subset_iff, List.mem_toFinset]; exact List.mem_map_of_mem (by decide))
/-- A buffer host stretch 4 does not write keeps its contents through it. -/
theorem keep4 (W : Valuation τ sig (Elt Ideal)) (r : Ref sig .tc) (h : r ∉ hw4) :
    after hostOps4 W (Proc.devRef .tc r) = W (Proc.devRef .tc r) :=
  after_of_writes_sub hostOps4 _ hw4_writes h

/-- The buffers host stretch 5 writes. -/
abbrev hw5 : List (Ref sig .tc) := [main_c_4, main_v43, main_v44, main_c_5, main_v45, main_v46, main_v47, main_v48, main_v49, main_v50, main_v51, main_v52, main_cst_6, main_v53, main_v54, main_v55]
theorem hw5_writes : (hostOps5 : List (HloOp τ sig (Elt Ideal))).Forall fun op => op.writes ⊆ (hw5.map (Proc.devRef (τ := τ) .tc)).toFinset := by
  simp only [hostOps5, List.Forall]
  repeat' apply And.intro
  all_goals (simp only [nullary_writes, unary_writes, binary_writes, ternary_writes, reshape_writes, Finset.singleton_subset_iff, List.mem_toFinset]; exact List.mem_map_of_mem (by decide))
/-- A buffer host stretch 5 does not write keeps its contents through it. -/
theorem keep5 (W : Valuation τ sig (Elt Ideal)) (r : Ref sig .tc) (h : r ∉ hw5) :
    after hostOps5 W (Proc.devRef .tc r) = W (Proc.devRef .tc r) :=
  after_of_writes_sub hostOps5 _ hw5_writes h

/-! ## After host stretch 0 (the entry of projection region 0) -/

theorem w1_v1 : W1 m ρ c (Proc.devRef .tc main_v1) = (srcOf (aE m c)) := by
  show after hostOps0 (W0 m ρ c) (Proc.devRef .tc main_v1) = _
  simp only [hostOps0]
  after_results
  rfl
theorem w1_v3 : W1 m ρ c (Proc.devRef .tc main_v3) = (dstOf (aE m c)) := by
  show after hostOps0 (W0 m ρ c) (Proc.devRef .tc main_v3) = _
  simp only [hostOps0]
  after_results
  rfl
theorem w1_v4 : W1 m ρ c (Proc.devRef .tc main_v4) = (gateT (aWih m c)) := by
  show after hostOps0 (W0 m ρ c) (Proc.devRef .tc main_v4) = _
  simp only [hostOps0]
  after_results
  rfl
theorem w1_v5 : W1 m ρ c (Proc.devRef .tc main_v5) = (gateT (aWhh m c)) := by
  show after hostOps0 (W0 m ρ c) (Proc.devRef .tc main_v5) = _
  simp only [hostOps0]
  after_results
  rfl
theorem w1_v7 : W1 m ρ c (Proc.devRef .tc main_v7) = (w0 (aW m c)) := by
  show after hostOps0 (W0 m ρ c) (Proc.devRef .tc main_v7) = _
  simp only [hostOps0]
  after_results
  rfl
theorem w1_arg0 : W1 m ρ c (Proc.devRef .tc main_arg0) = (aZ m c) :=
  (keep0 (W0 m ρ c) main_arg0 (by decide)).trans rfl
theorem w1_arg1 : W1 m ρ c (Proc.devRef .tc main_arg1) = (aEW m c) :=
  (keep0 (W0 m ρ c) main_arg1 (by decide)).trans rfl
theorem w1_arg2 : W1 m ρ c (Proc.devRef .tc main_arg2) = (aW m c) :=
  (keep0 (W0 m ρ c) main_arg2 (by decide)).trans rfl
theorem w1_arg5 : W1 m ρ c (Proc.devRef .tc main_arg5) = (aBih m c) :=
  (keep0 (W0 m ρ c) main_arg5 (by decide)).trans rfl
theorem w1_arg6 : W1 m ρ c (Proc.devRef .tc main_arg6) = (aBhh m c) :=
  (keep0 (W0 m ρ c) main_arg6 (by decide)).trans rfl

/-! ## After projection region 0 -/

theorem w2_v8 : W2 m ρ c (Proc.devRef .tc main_v8) = (proj (aZ m c) (w0 (aW m c))) := by
  refine ((W2_arr m ρ c 2).trans (Cert.Gnn.Proj0.final (V1 m ρ) c)).trans ?_
  show Host.dotGeneral (F := Ideal) (φ₁ := .f32) (φ₂ := .f32) (DotDims.plain 100000 128 128) none (W1 m ρ c (Proc.devRef .tc main_arg0)) (W1 m ρ c (Proc.devRef .tc main_v7)) = _
  rw [w1_arg0, w1_v7]
  rfl
theorem w2_arg0 : W2 m ρ c (Proc.devRef .tc main_arg0) = (aZ m c) :=
  ((W2_arr m ρ c 0).trans (((dat0 (V1 m ρ) c).arrAt_in 0 rfl _).trans (A_eq0 (V1 m ρ) c 0))).trans (w1_arg0 m ρ c)
theorem w2_v1 : W2 m ρ c (Proc.devRef .tc main_v1) = (srcOf (aE m c)) :=
  (W2_of_ne m ρ c main_v1 (by decide)).trans (w1_v1 m ρ c)
theorem w2_v3 : W2 m ρ c (Proc.devRef .tc main_v3) = (dstOf (aE m c)) :=
  (W2_of_ne m ρ c main_v3 (by decide)).trans (w1_v3 m ρ c)
theorem w2_v4 : W2 m ρ c (Proc.devRef .tc main_v4) = (gateT (aWih m c)) :=
  (W2_of_ne m ρ c main_v4 (by decide)).trans (w1_v4 m ρ c)
theorem w2_v5 : W2 m ρ c (Proc.devRef .tc main_v5) = (gateT (aWhh m c)) :=
  (W2_of_ne m ρ c main_v5 (by decide)).trans (w1_v5 m ρ c)
theorem w2_arg1 : W2 m ρ c (Proc.devRef .tc main_arg1) = (aEW m c) :=
  (W2_of_ne m ρ c main_arg1 (by decide)).trans (w1_arg1 m ρ c)
theorem w2_arg2 : W2 m ρ c (Proc.devRef .tc main_arg2) = (aW m c) :=
  (W2_of_ne m ρ c main_arg2 (by decide)).trans (w1_arg2 m ρ c)
theorem w2_arg5 : W2 m ρ c (Proc.devRef .tc main_arg5) = (aBih m c) :=
  (W2_of_ne m ρ c main_arg5 (by decide)).trans (w1_arg5 m ρ c)
theorem w2_arg6 : W2 m ρ c (Proc.devRef .tc main_arg6) = (aBhh m c) :=
  (W2_of_ne m ρ c main_arg6 (by decide)).trans (w1_arg6 m ρ c)

/-! ## After host stretch 1 (the entry of recurrent-unit region 1) -/

set_option maxRecDepth 8192 in
set_option maxHeartbeats 2000000 in
theorem w3_v21 : W3 m ρ c (Proc.devRef .tc main_v21) = (aggregate (proj (aZ m c) (w0 (aW m c))) (srcOf (aE m c)) (dstOf (aE m c)) (aEW m c)) := by
  show after hostOps1 (W2 m ρ c) (Proc.devRef .tc main_v21) = _
  simp only [hostOps1]
  after_results_simp
  rw [w2_v8, w2_v1, w2_v3, w2_arg1]
  rfl
theorem w3_arg0 : W3 m ρ c (Proc.devRef .tc main_arg0) = (aZ m c) :=
  (keep1 (W2 m ρ c) main_arg0 (by decide)).trans (w2_arg0 m ρ c)
theorem w3_v1 : W3 m ρ c (Proc.devRef .tc main_v1) = (srcOf (aE m c)) :=
  (keep1 (W2 m ρ c) main_v1 (by decide)).trans (w2_v1 m ρ c)
theorem w3_v3 : W3 m ρ c (Proc.devRef .tc main_v3) = (dstOf (aE m c)) :=
  (keep1 (W2 m ρ c) main_v3 (by decide)).trans (w2_v3 m ρ c)
theorem w3_v4 : W3 m ρ c (Proc.devRef .tc main_v4) = (gateT (aWih m c)) :=
  (keep1 (W2 m ρ c) main_v4 (by decide)).trans (w2_v4 m ρ c)
theorem w3_v5 : W3 m ρ c (Proc.devRef .tc main_v5) = (gateT (aWhh m c)) :=
  (keep1 (W2 m ρ c) main_v5 (by decide)).trans (w2_v5 m ρ c)
theorem w3_arg1 : W3 m ρ c (Proc.devRef .tc main_arg1) = (aEW m c) :=
  (keep1 (W2 m ρ c) main_arg1 (by decide)).trans (w2_arg1 m ρ c)
theorem w3_arg2 : W3 m ρ c (Proc.devRef .tc main_arg2) = (aW m c) :=
  (keep1 (W2 m ρ c) main_arg2 (by decide)).trans (w2_arg2 m ρ c)
theorem w3_arg5 : W3 m ρ c (Proc.devRef .tc main_arg5) = (aBih m c) :=
  (keep1 (W2 m ρ c) main_arg5 (by decide)).trans (w2_arg5 m ρ c)
theorem w3_arg6 : W3 m ρ c (Proc.devRef .tc main_arg6) = (aBhh m c) :=
  (keep1 (W2 m ρ c) main_arg6 (by decide)).trans (w2_arg6 m ρ c)

/-! ## After recurrent-unit region 1 -/

theorem w4_v22 : W4 m ρ c (Proc.devRef .tc main_v22) = (x1 m c) := by
  refine ((W4_arr m ρ c 6).trans (Cert.Gnn.Gru1.final (V3 m ρ) Cert.ReferenceIdeal.Gen.bcast_S384_S1x384_1 Cert.ReferenceIdeal.Gen.bcast_S1x384_S100000x384_0_1 Cert.ReferenceIdeal.Gen.slices_S100000x384_S100000x128_0_0 Cert.ReferenceIdeal.Gen.slices_S100000x384_S100000x128_0_128 Cert.ReferenceIdeal.Gen.slices_S100000x384_S100000x128_0_256 Cert.KernelIdeal.Gen.bcast_S_S100000x128 c)).trans ?_
  show gruH (M := 100000) (W3 m ρ c (Proc.devRef .tc main_v21)) (W3 m ρ c (Proc.devRef .tc main_arg0)) (W3 m ρ c (Proc.devRef .tc main_v4)) (W3 m ρ c (Proc.devRef .tc main_v5))
      (W3 m ρ c (Proc.devRef .tc main_arg5)) (W3 m ρ c (Proc.devRef .tc main_arg6)) Cert.ReferenceIdeal.Gen.bcast_S384_S1x384_1 Cert.ReferenceIdeal.Gen.bcast_S1x384_S100000x384_0_1 Cert.ReferenceIdeal.Gen.slices_S100000x384_S100000x128_0_0 Cert.ReferenceIdeal.Gen.slices_S100000x384_S100000x128_0_128 Cert.ReferenceIdeal.Gen.slices_S100000x384_S100000x128_0_256 Cert.KernelIdeal.Gen.bcast_S_S100000x128 = _
  rw [w3_v21, w3_arg0, w3_v4, w3_v5, w3_arg5, w3_arg6]
  rfl
theorem w4_v1 : W4 m ρ c (Proc.devRef .tc main_v1) = (srcOf (aE m c)) :=
  (W4_of_ne m ρ c main_v1 (by decide)).trans (w3_v1 m ρ c)
theorem w4_v3 : W4 m ρ c (Proc.devRef .tc main_v3) = (dstOf (aE m c)) :=
  (W4_of_ne m ρ c main_v3 (by decide)).trans (w3_v3 m ρ c)
theorem w4_v4 : W4 m ρ c (Proc.devRef .tc main_v4) = (gateT (aWih m c)) :=
  ((W4_arr m ρ c 2).trans (((dat1 (V3 m ρ) c).arrAt_in 2 rfl _).trans (A_eq1 (V3 m ρ) c 2))).trans (w3_v4 m ρ c)
theorem w4_v5 : W4 m ρ c (Proc.devRef .tc main_v5) = (gateT (aWhh m c)) :=
  ((W4_arr m ρ c 3).trans (((dat1 (V3 m ρ) c).arrAt_in 3 rfl _).trans (A_eq1 (V3 m ρ) c 3))).trans (w3_v5 m ρ c)
theorem w4_arg1 : W4 m ρ c (Proc.devRef .tc main_arg1) = (aEW m c) :=
  (W4_of_ne m ρ c main_arg1 (by decide)).trans (w3_arg1 m ρ c)
theorem w4_arg2 : W4 m ρ c (Proc.devRef .tc main_arg2) = (aW m c) :=
  (W4_of_ne m ρ c main_arg2 (by decide)).trans (w3_arg2 m ρ c)
theorem w4_arg5 : W4 m ρ c (Proc.devRef .tc main_arg5) = (aBih m c) :=
  ((W4_arr m ρ c 4).trans (((dat1 (V3 m ρ) c).arrAt_in 4 rfl _).trans (A_eq1 (V3 m ρ) c 4))).trans (w3_arg5 m ρ c)
theorem w4_arg6 : W4 m ρ c (Proc.devRef .tc main_arg6) = (aBhh m c) :=
  ((W4_arr m ρ c 5).trans (((dat1 (V3 m ρ) c).arrAt_in 5 rfl _).trans (A_eq1 (V3 m ρ) c 5))).trans (w3_arg6 m ρ c)

end Cert.Gnn.Fold

end
-- ==== Proof.Fold1.lean ====
/-
  The buffer contents through round 2 of the kernel's program.

  The contents at the segment boundaries are a fold from the launch memory: a host stretch applies its operations,
  a region replaces its output array by what its write-backs leave and keeps every other buffer.  Boundary by boundary
  this module says what each buffer still to be read holds, as a function of the argument arrays: a slice of the
  weights after the first stretch, the projected states after the projection region, the aggregated messages after
  the gather–scale–scatter stretch, the new states after the recurrent-unit region; the source and target node lists,
  the transposed gate matrices and the arguments are carried along unchanged.
-/
import proofs.«116273_j44220983279938_1_alg».proof.Proof.KernelIdealFrameP
import proofs.«116273_j44220983279938_1_alg».proof.Proof.Spec
import proofs.«116273_j44220983279938_1_alg».proof.Proof.Proj2
import proofs.«116273_j44220983279938_1_alg».proof.Proof.Gru3
import proofs.«116273_j44220983279938_1_alg».proof.Proof.Fold0

set_option maxRecDepth 16384

noncomputable section

namespace Cert.Gnn.Fold

open Cert.KernelIdeal Cert.KernelIdeal.Gen Cert.KernelIdeal.GenP Cert.Gnn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After host stretch 2 (the entry of projection region 2) -/

theorem w5_v24 : W5 m ρ c (Proc.devRef .tc main_v24) = (w1 (aW m c)) := by
  show after hostOps2 (W4 m ρ c) (Proc.devRef .tc main_v24) = _
  simp only [hostOps2]
  after_results
  rw [w4_arg2]
  rfl
theorem w5_v22 : W5 m ρ c (Proc.devRef .tc main_v22) = (x1 m c) :=
  (keep2 (W4 m ρ c) main_v22 (by decide)).trans (w4_v22 m ρ c)
theorem w5_v1 : W5 m ρ c (Proc.devRef .tc main_v1) = (srcOf (aE m c)) :=
  (keep2 (W4 m ρ c) main_v1 (by decide)).trans (w4_v1 m ρ c)
theorem w5_v3 : W5 m ρ c (Proc.devRef .tc main_v3) = (dstOf (aE m c)) :=
  (keep2 (W4 m ρ c) main_v3 (by decide)).trans (w4_v3 m ρ c)
theorem w5_v4 : W5 m ρ c (Proc.devRef .tc main_v4) = (gateT (aWih m c)) :=
  (keep2 (W4 m ρ c) main_v4 (by decide)).trans (w4_v4 m ρ c)
theorem w5_v5 : W5 m ρ c (Proc.devRef .tc main_v5) = (gateT (aWhh m c)) :=
  (keep2 (W4 m ρ c) main_v5 (by decide)).trans (w4_v5 m ρ c)
theorem w5_arg1 : W5 m ρ c (Proc.devRef .tc main_arg1) = (aEW m c) :=
  (keep2 (W4 m ρ c) main_arg1 (by decide)).trans (w4_arg1 m ρ c)
theorem w5_arg2 : W5 m ρ c (Proc.devRef .tc main_arg2) = (aW m c) :=
  (keep2 (W4 m ρ c) main_arg2 (by decide)).trans (w4_arg2 m ρ c)
theorem w5_arg5 : W5 m ρ c (Proc.devRef .tc main_arg5) = (aBih m c) :=
  (keep2 (W4 m ρ c) main_arg5 (by decide)).trans (w4_arg5 m ρ c)
theorem w5_arg6 : W5 m ρ c (Proc.devRef .tc main_arg6) = (aBhh m c) :=
  (keep2 (W4 m ρ c) main_arg6 (by decide)).trans (w4_arg6 m ρ c)

/-! ## After projection region 2 -/

theorem w6_v25 : W6 m ρ c (Proc.devRef .tc main_v25) = (proj (x1 m c) (w1 (aW m c))) := by
  refine ((W6_arr m ρ c 2).trans (Cert.Gnn.Proj2.final (V5 m ρ) c)).trans ?_
  show Host.dotGeneral (F := Ideal) (φ₁ := .f32) (φ₂ := .f32) (DotDims.plain 100000 128 128) none (W5 m ρ c (Proc.devRef .tc main_v22)) (W5 m ρ c (Proc.devRef .tc main_v24)) = _
  rw [w5_v22, w5_v24]
  rfl
theorem w6_v22 : W6 m ρ c (Proc.devRef .tc main_v22) = (x1 m c) :=
  ((W6_arr m ρ c 0).trans (((dat2 (V5 m ρ) c).arrAt_in 0 rfl _).trans (A_eq2 (V5 m ρ) c 0))).trans (w5_v22 m ρ c)
theorem w6_v1 : W6 m ρ c (Proc.devRef .tc main_v1) = (srcOf (aE m c)) :=
  (W6_of_ne m ρ c main_v1 (by decide)).trans (w5_v1 m ρ c)
theorem w6_v3 : W6 m ρ c (Proc.devRef .tc main_v3) = (dstOf (aE m c)) :=
  (W6_of_ne m ρ c main_v3 (by decide)).trans (w5_v3 m ρ c)
theorem w6_v4 : W6 m ρ c (Proc.devRef .tc main_v4) = (gateT (aWih m c)) :=
  (W6_of_ne m ρ c main_v4 (by decide)).trans (w5_v4 m ρ c)
theorem w6_v5 : W6 m ρ c (Proc.devRef .tc main_v5) = (gateT (aWhh m c)) :=
  (W6_of_ne m ρ c main_v5 (by decide)).trans (w5_v5 m ρ c)
theorem w6_arg1 : W6 m ρ c (Proc.devRef .tc main_arg1) = (aEW m c) :=
  (W6_of_ne m ρ c main_arg1 (by decide)).trans (w5_arg1 m ρ c)
theorem w6_arg2 : W6 m ρ c (Proc.devRef .tc main_arg2) = (aW m c) :=
  (W6_of_ne m ρ c main_arg2 (by decide)).trans (w5_arg2 m ρ c)
theorem w6_arg5 : W6 m ρ c (Proc.devRef .tc main_arg5) = (aBih m c) :=
  (W6_of_ne m ρ c main_arg5 (by decide)).trans (w5_arg5 m ρ c)
theorem w6_arg6 : W6 m ρ c (Proc.devRef .tc main_arg6) = (aBhh m c) :=
  (W6_of_ne m ρ c main_arg6 (by decide)).trans (w5_arg6 m ρ c)

/-! ## After host stretch 3 (the entry of recurrent-unit region 3) -/

set_option maxRecDepth 8192 in
set_option maxHeartbeats 2000000 in
theorem w7_v38 : W7 m ρ c (Proc.devRef .tc main_v38) = (aggregate (proj (x1 m c) (w1 (aW m c))) (srcOf (aE m c)) (dstOf (aE m c)) (aEW m c)) := by
  show after hostOps3 (W6 m ρ c) (Proc.devRef .tc main_v38) = _
  simp only [hostOps3]
  after_results_simp
  rw [w6_v25, w6_v1, w6_v3, w6_arg1]
  rfl
theorem w7_v22 : W7 m ρ c (Proc.devRef .tc main_v22) = (x1 m c) :=
  (keep3 (W6 m ρ c) main_v22 (by decide)).trans (w6_v22 m ρ c)
theorem w7_v1 : W7 m ρ c (Proc.devRef .tc main_v1) = (srcOf (aE m c)) :=
  (keep3 (W6 m ρ c) main_v1 (by decide)).trans (w6_v1 m ρ c)
theorem w7_v3 : W7 m ρ c (Proc.devRef .tc main_v3) = (dstOf (aE m c)) :=
  (keep3 (W6 m ρ c) main_v3 (by decide)).trans (w6_v3 m ρ c)
theorem w7_v4 : W7 m ρ c (Proc.devRef .tc main_v4) = (gateT (aWih m c)) :=
  (keep3 (W6 m ρ c) main_v4 (by decide)).trans (w6_v4 m ρ c)
theorem w7_v5 : W7 m ρ c (Proc.devRef .tc main_v5) = (gateT (aWhh m c)) :=
  (keep3 (W6 m ρ c) main_v5 (by decide)).trans (w6_v5 m ρ c)
theorem w7_arg1 : W7 m ρ c (Proc.devRef .tc main_arg1) = (aEW m c) :=
  (keep3 (W6 m ρ c) main_arg1 (by decide)).trans (w6_arg1 m ρ c)
theorem w7_arg2 : W7 m ρ c (Proc.devRef .tc main_arg2) = (aW m c) :=
  (keep3 (W6 m ρ c) main_arg2 (by decide)).trans (w6_arg2 m ρ c)
theorem w7_arg5 : W7 m ρ c (Proc.devRef .tc main_arg5) = (aBih m c) :=
  (keep3 (W6 m ρ c) main_arg5 (by decide)).trans (w6_arg5 m ρ c)
theorem w7_arg6 : W7 m ρ c (Proc.devRef .tc main_arg6) = (aBhh m c) :=
  (keep3 (W6 m ρ c) main_arg6 (by decide)).trans (w6_arg6 m ρ c)

/-! ## After recurrent-unit region 3 -/

theorem w8_v39 : W8 m ρ c (Proc.devRef .tc main_v39) = (x2 m c) := by
  refine ((W8_arr m ρ c 6).trans (Cert.Gnn.Gru3.final (V7 m ρ) Cert.ReferenceIdeal.Gen.bcast_S384_S1x384_1 Cert.ReferenceIdeal.Gen.bcast_S1x384_S100000x384_0_1 Cert.ReferenceIdeal.Gen.slices_S100000x384_S100000x128_0_0 Cert.ReferenceIdeal.Gen.slices_S100000x384_S100000x128_0_128 Cert.ReferenceIdeal.Gen.slices_S100000x384_S100000x128_0_256 Cert.KernelIdeal.Gen.bcast_S_S100000x128 c)).trans ?_
  show gruH (M := 100000) (W7 m ρ c (Proc.devRef .tc main_v38)) (W7 m ρ c (Proc.devRef .tc main_v22)) (W7 m ρ c (Proc.devRef .tc main_v4)) (W7 m ρ c (Proc.devRef .tc main_v5))
      (W7 m ρ c (Proc.devRef .tc main_arg5)) (W7 m ρ c (Proc.devRef .tc main_arg6)) Cert.ReferenceIdeal.Gen.bcast_S384_S1x384_1 Cert.ReferenceIdeal.Gen.bcast_S1x384_S100000x384_0_1 Cert.ReferenceIdeal.Gen.slices_S100000x384_S100000x128_0_0 Cert.ReferenceIdeal.Gen.slices_S100000x384_S100000x128_0_128 Cert.ReferenceIdeal.Gen.slices_S100000x384_S100000x128_0_256 Cert.KernelIdeal.Gen.bcast_S_S100000x128 = _
  rw [w7_v38, w7_v22, w7_v4, w7_v5, w7_arg5, w7_arg6]
  rfl
theorem w8_v1 : W8 m ρ c (Proc.devRef .tc main_v1) = (srcOf (aE m c)) :=
  (W8_of_ne m ρ c main_v1 (by decide)).trans (w7_v1 m ρ c)
theorem w8_v3 : W8 m ρ c (Proc.devRef .tc main_v3) = (dstOf (aE m c)) :=
  (W8_of_ne m ρ c main_v3 (by decide)).trans (w7_v3 m ρ c)
theorem w8_v4 : W8 m ρ c (Proc.devRef .tc main_v4) = (gateT (aWih m c)) :=
  ((W8_arr m ρ c 2).trans (((dat3 (V7 m ρ) c).arrAt_in 2 rfl _).trans (A_eq3 (V7 m ρ) c 2))).trans (w7_v4 m ρ c)
theorem w8_v5 : W8 m ρ c (Proc.devRef .tc main_v5) = (gateT (aWhh m c)) :=
  ((W8_arr m ρ c 3).trans (((dat3 (V7 m ρ) c).arrAt_in 3 rfl _).trans (A_eq3 (V7 m ρ) c 3))).trans (w7_v5 m ρ c)
theorem w8_arg1 : W8 m ρ c (Proc.devRef .tc main_arg1) = (aEW m c) :=
  (W8_of_ne m ρ c main_arg1 (by decide)).trans (w7_arg1 m ρ c)
theorem w8_arg2 : W8 m ρ c (Proc.devRef .tc main_arg2) = (aW m c) :=
  (W8_of_ne m ρ c main_arg2 (by decide)).trans (w7_arg2 m ρ c)
theorem w8_arg5 : W8 m ρ c (Proc.devRef .tc main_arg5) = (aBih m c) :=
  ((W8_arr m ρ c 4).trans (((dat3 (V7 m ρ) c).arrAt_in 4 rfl _).trans (A_eq3 (V7 m ρ) c 4))).trans (w7_arg5 m ρ c)
theorem w8_arg6 : W8 m ρ c (Proc.devRef .tc main_arg6) = (aBhh m c) :=
  ((W8_arr m ρ c 5).trans (((dat3 (V7 m ρ) c).arrAt_in 5 rfl _).trans (A_eq3 (V7 m ρ) c 5))).trans (w7_arg6 m ρ c)

end Cert.Gnn.Fold

end
-- ==== Proof.Fold2.lean ====
/-
  The buffer contents through round 3 of the kernel's program.

  The contents at the segment boundaries are a fold from the launch memory: a host stretch applies its operations,
  a region replaces its output array by what its write-backs leave and keeps every other buffer.  Boundary by boundary
  this module says what each buffer still to be read holds, as a function of the argument arrays: a slice of the
  weights after the first stretch, the projected states after the projection region, the aggregated messages after
  the gather–scale–scatter stretch, the new states after the recurrent-unit region; the source and target node lists,
  the transposed gate matrices and the arguments are carried along unchanged.
-/
import proofs.«116273_j44220983279938_1_alg».proof.Proof.KernelIdealFrameP
import proofs.«116273_j44220983279938_1_alg».proof.Proof.Spec
import proofs.«116273_j44220983279938_1_alg».proof.Proof.Proj4
import proofs.«116273_j44220983279938_1_alg».proof.Proof.Gru5
import proofs.«116273_j44220983279938_1_alg».proof.Proof.Fold1

set_option maxRecDepth 16384

noncomputable section

namespace Cert.Gnn.Fold

open Cert.KernelIdeal Cert.KernelIdeal.Gen Cert.KernelIdeal.GenP Cert.Gnn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After host stretch 4 (the entry of projection region 4) -/

theorem w9_v41 : W9 m ρ c (Proc.devRef .tc main_v41) = (w2 (aW m c)) := by
  show after hostOps4 (W8 m ρ c) (Proc.devRef .tc main_v41) = _
  simp only [hostOps4]
  after_results
  rw [w8_arg2]
  rfl
theorem w9_v39 : W9 m ρ c (Proc.devRef .tc main_v39) = (x2 m c) :=
  (keep4 (W8 m ρ c) main_v39 (by decide)).trans (w8_v39 m ρ c)
theorem w9_v1 : W9 m ρ c (Proc.devRef .tc main_v1) = (srcOf (aE m c)) :=
  (keep4 (W8 m ρ c) main_v1 (by decide)).trans (w8_v1 m ρ c)
theorem w9_v3 : W9 m ρ c (Proc.devRef .tc main_v3) = (dstOf (aE m c)) :=
  (keep4 (W8 m ρ c) main_v3 (by decide)).trans (w8_v3 m ρ c)
theorem w9_v4 : W9 m ρ c (Proc.devRef .tc main_v4) = (gateT (aWih m c)) :=
  (keep4 (W8 m ρ c) main_v4 (by decide)).trans (w8_v4 m ρ c)
theorem w9_v5 : W9 m ρ c (Proc.devRef .tc main_v5) = (gateT (aWhh m c)) :=
  (keep4 (W8 m ρ c) main_v5 (by decide)).trans (w8_v5 m ρ c)
theorem w9_arg1 : W9 m ρ c (Proc.devRef .tc main_arg1) = (aEW m c) :=
  (keep4 (W8 m ρ c) main_arg1 (by decide)).trans (w8_arg1 m ρ c)
theorem w9_arg2 : W9 m ρ c (Proc.devRef .tc main_arg2) = (aW m c) :=
  (keep4 (W8 m ρ c) main_arg2 (by decide)).trans (w8_arg2 m ρ c)
theorem w9_arg5 : W9 m ρ c (Proc.devRef .tc main_arg5) = (aBih m c) :=
  (keep4 (W8 m ρ c) main_arg5 (by decide)).trans (w8_arg5 m ρ c)
theorem w9_arg6 : W9 m ρ c (Proc.devRef .tc main_arg6) = (aBhh m c) :=
  (keep4 (W8 m ρ c) main_arg6 (by decide)).trans (w8_arg6 m ρ c)

/-! ## After projection region 4 -/

theorem w10_v42 : W10 m ρ c (Proc.devRef .tc main_v42) = (proj (x2 m c) (w2 (aW m c))) := by
  refine ((W10_arr m ρ c 2).trans (Cert.Gnn.Proj4.final (V9 m ρ) c)).trans ?_
  show Host.dotGeneral (F := Ideal) (φ₁ := .f32) (φ₂ := .f32) (DotDims.plain 100000 128 128) none (W9 m ρ c (Proc.devRef .tc main_v39)) (W9 m ρ c (Proc.devRef .tc main_v41)) = _
  rw [w9_v39, w9_v41]
  rfl
theorem w10_v39 : W10 m ρ c (Proc.devRef .tc main_v39) = (x2 m c) :=
  ((W10_arr m ρ c 0).trans (((dat4 (V9 m ρ) c).arrAt_in 0 rfl _).trans (A_eq4 (V9 m ρ) c 0))).trans (w9_v39 m ρ c)
theorem w10_v1 : W10 m ρ c (Proc.devRef .tc main_v1) = (srcOf (aE m c)) :=
  (W10_of_ne m ρ c main_v1 (by decide)).trans (w9_v1 m ρ c)
theorem w10_v3 : W10 m ρ c (Proc.devRef .tc main_v3) = (dstOf (aE m c)) :=
  (W10_of_ne m ρ c main_v3 (by decide)).trans (w9_v3 m ρ c)
theorem w10_v4 : W10 m ρ c (Proc.devRef .tc main_v4) = (gateT (aWih m c)) :=
  (W10_of_ne m ρ c main_v4 (by decide)).trans (w9_v4 m ρ c)
theorem w10_v5 : W10 m ρ c (Proc.devRef .tc main_v5) = (gateT (aWhh m c)) :=
  (W10_of_ne m ρ c main_v5 (by decide)).trans (w9_v5 m ρ c)
theorem w10_arg1 : W10 m ρ c (Proc.devRef .tc main_arg1) = (aEW m c) :=
  (W10_of_ne m ρ c main_arg1 (by decide)).trans (w9_arg1 m ρ c)
theorem w10_arg2 : W10 m ρ c (Proc.devRef .tc main_arg2) = (aW m c) :=
  (W10_of_ne m ρ c main_arg2 (by decide)).trans (w9_arg2 m ρ c)
theorem w10_arg5 : W10 m ρ c (Proc.devRef .tc main_arg5) = (aBih m c) :=
  (W10_of_ne m ρ c main_arg5 (by decide)).trans (w9_arg5 m ρ c)
theorem w10_arg6 : W10 m ρ c (Proc.devRef .tc main_arg6) = (aBhh m c) :=
  (W10_of_ne m ρ c main_arg6 (by decide)).trans (w9_arg6 m ρ c)

/-! ## After host stretch 5 (the entry of recurrent-unit region 5) -/

set_option maxRecDepth 8192 in
set_option maxHeartbeats 2000000 in
theorem w11_v55 : W11 m ρ c (Proc.devRef .tc main_v55) = (aggregate (proj (x2 m c) (w2 (aW m c))) (srcOf (aE m c)) (dstOf (aE m c)) (aEW m c)) := by
  show after hostOps5 (W10 m ρ c) (Proc.devRef .tc main_v55) = _
  simp only [hostOps5]
  after_results_simp
  rw [w10_v42, w10_v1, w10_v3, w10_arg1]
  rfl
theorem w11_v39 : W11 m ρ c (Proc.devRef .tc main_v39) = (x2 m c) :=
  (keep5 (W10 m ρ c) main_v39 (by decide)).trans (w10_v39 m ρ c)
theorem w11_v1 : W11 m ρ c (Proc.devRef .tc main_v1) = (srcOf (aE m c)) :=
  (keep5 (W10 m ρ c) main_v1 (by decide)).trans (w10_v1 m ρ c)
theorem w11_v3 : W11 m ρ c (Proc.devRef .tc main_v3) = (dstOf (aE m c)) :=
  (keep5 (W10 m ρ c) main_v3 (by decide)).trans (w10_v3 m ρ c)
theorem w11_v4 : W11 m ρ c (Proc.devRef .tc main_v4) = (gateT (aWih m c)) :=
  (keep5 (W10 m ρ c) main_v4 (by decide)).trans (w10_v4 m ρ c)
theorem w11_v5 : W11 m ρ c (Proc.devRef .tc main_v5) = (gateT (aWhh m c)) :=
  (keep5 (W10 m ρ c) main_v5 (by decide)).trans (w10_v5 m ρ c)
theorem w11_arg1 : W11 m ρ c (Proc.devRef .tc main_arg1) = (aEW m c) :=
  (keep5 (W10 m ρ c) main_arg1 (by decide)).trans (w10_arg1 m ρ c)
theorem w11_arg2 : W11 m ρ c (Proc.devRef .tc main_arg2) = (aW m c) :=
  (keep5 (W10 m ρ c) main_arg2 (by decide)).trans (w10_arg2 m ρ c)
theorem w11_arg5 : W11 m ρ c (Proc.devRef .tc main_arg5) = (aBih m c) :=
  (keep5 (W10 m ρ c) main_arg5 (by decide)).trans (w10_arg5 m ρ c)
theorem w11_arg6 : W11 m ρ c (Proc.devRef .tc main_arg6) = (aBhh m c) :=
  (keep5 (W10 m ρ c) main_arg6 (by decide)).trans (w10_arg6 m ρ c)

/-! ## After recurrent-unit region 5 -/

theorem w12_v56 : W12 m ρ c (Proc.devRef .tc main_v56) = (x3 m c) := by
  refine ((W12_arr m ρ c 6).trans (Cert.Gnn.Gru5.final (V11 m ρ) Cert.ReferenceIdeal.Gen.bcast_S384_S1x384_1 Cert.ReferenceIdeal.Gen.bcast_S1x384_S100000x384_0_1 Cert.ReferenceIdeal.Gen.slices_S100000x384_S100000x128_0_0 Cert.ReferenceIdeal.Gen.slices_S100000x384_S100000x128_0_128 Cert.ReferenceIdeal.Gen.slices_S100000x384_S100000x128_0_256 Cert.KernelIdeal.Gen.bcast_S_S100000x128 c)).trans ?_
  show gruH (M := 100000) (W11 m ρ c (Proc.devRef .tc main_v55)) (W11 m ρ c (Proc.devRef .tc main_v39)) (W11 m ρ c (Proc.devRef .tc main_v4)) (W11 m ρ c (Proc.devRef .tc main_v5))
      (W11 m ρ c (Proc.devRef .tc main_arg5)) (W11 m ρ c (Proc.devRef .tc main_arg6)) Cert.ReferenceIdeal.Gen.bcast_S384_S1x384_1 Cert.ReferenceIdeal.Gen.bcast_S1x384_S100000x384_0_1 Cert.ReferenceIdeal.Gen.slices_S100000x384_S100000x128_0_0 Cert.ReferenceIdeal.Gen.slices_S100000x384_S100000x128_0_128 Cert.ReferenceIdeal.Gen.slices_S100000x384_S100000x128_0_256 Cert.KernelIdeal.Gen.bcast_S_S100000x128 = _
  rw [w11_v55, w11_v39, w11_v4, w11_v5, w11_arg5, w11_arg6]
  rfl

end Cert.Gnn.Fold

end
-- ==== Proof.RefIs.lean ====
/-
  The reference's run computes the specification's function.

  The reference is one straight line of host operations; its generated run names the stages that are used more than
  once — the gate pre-activations and the update gate of each round, and the node states after the first and the second
  round.  Unfolding the names, round l of the reference is literally the specification's round: the whole projection,
  the gather–scale–scatter, the two affine maps, and the gate chain with σ spelt as a quotient.  So each round is the
  specification's by unfolding definitions, and the result is its three rounds.
-/
import proofs.«116273_j44220983279938_1_alg».proof.Proof.Gen.ReferenceIdeal.Run
import proofs.«116273_j44220983279938_1_alg».proof.Proof.Spec

set_option maxRecDepth 16384

noncomputable section

namespace Cert.Gnn.Ref

open Cert.ReferenceIdeal Cert.ReferenceIdeal.Gen Cert.ReferenceIdeal.Value Cert.Gnn
open Idealize.ShloMosaic Idealize.ShloMosaic.TcCoe Idealize.SL.Sem Idealize.ShloMosaic.StableHlo

variable (V0 : Valuation τ sig (Elt Ideal))

abbrev rZ : Feat := V0 (Proc.devRef .tc main_arg0)
abbrev rEW : EdgeW := V0 (Proc.devRef .tc main_arg1)
abbrev rW : Weights := V0 (Proc.devRef .tc main_arg2)
abbrev rWih : GateW := V0 (Proc.devRef .tc main_arg3)
abbrev rWhh : GateW := V0 (Proc.devRef .tc main_arg4)
abbrev rBih : GateB := V0 (Proc.devRef .tc main_arg5)
abbrev rBhh : GateB := V0 (Proc.devRef .tc main_arg6)
abbrev rE : EdgeList := V0 (Proc.devRef .tc main_arg7)

/-- The reference's states after the first round. -/
theorem x1_eq : res_main_v57 V0 = layer (rZ V0) (w0 (rW V0)) (srcOf (rE V0)) (dstOf (rE V0)) (rEW V0) (gateT (rWih V0)) (gateT (rWhh V0)) (rBih V0) (rBhh V0) := by
  unfold res_main_v57 res_main_v49 res_main_v24 res_main_v29 res_main_v1 res_main_v3
  rfl

/-- The reference's states after the second round. -/
theorem x2_eq : res_main_v111 V0 = layer (layer (rZ V0) (w0 (rW V0)) (srcOf (rE V0)) (dstOf (rE V0)) (rEW V0) (gateT (rWih V0)) (gateT (rWhh V0)) (rBih V0) (rBhh V0)) (w1 (rW V0)) (srcOf (rE V0)) (dstOf (rE V0)) (rEW V0) (gateT (rWih V0)) (gateT (rWhh V0)) (rBih V0) (rBhh V0) := by
  unfold res_main_v111 res_main_v103 res_main_v78 res_main_v83 res_main_v1 res_main_v3
  rw [x1_eq V0]
  rfl

/-- The reference's result is the specification's function of its arguments. -/
theorem result_eq : val4 V0 (Proc.devRef .tc main_v165)
    = gnn (rZ V0) (rEW V0) (rW V0) (rWih V0) (rWhh V0) (rBih V0) (rBhh V0) (rE V0) :=
  (val4_main_v165 V0).trans (by
    unfold res_main_v157 res_main_v132 res_main_v137 res_main_v1 res_main_v3
    rw [x2_eq V0]
    rfl)

end Cert.Gnn.Ref

end
-- ==== Proof.lean ====
/- The proof of `Cert.Claim`: a three-round message-passing network on a graph — in each round a projection of the
   node states, a gather of the projected rows at the edges' source nodes scaled by the edge weights, a segment sum at
   the target nodes, and a gated recurrent update — computed by six kernel regions among host operations, against the
   same network written as one line of host operations.

   The frames of the two kernel programs are the run of their segments (launch side and bodies by symbolic execution).
   The idealized kernel is the printed kernel read at the ideal values (no rewrite was applied), so nothing is owed for
   that.  For the values: the idealized kernel's run ends with its result buffer at the last boundary's contents
   (Proof/KRun.lean); each projection region leaves the whole product and each recurrent-unit region the host's whole
   gated step (Proof/Proj*.lean, Proof/Gru*.lean over Proof/Cell.lean: a block of rows on the matrix unit is the whole
   product at those rows, the one-operation σ is the quotient 1 / (1 + exp (−t)), a change of float format is the
   identity); read backwards through the twelve boundaries the result is the specification's function of the arguments
   (Proof/Fold0–2.lean, Proof/Spec.lean); and the reference's line of operations is the same function by unfolding
   (Proof/RefIs.lean).  The gather, the scaling and the scatter are the same host operations on both sides and are never
   opened; no law that needs finiteness is used, so the precondition is not opened either. -/
import proofs.«116273_j44220983279938_1_alg».proof.Defs
import proofs.«116273_j44220983279938_1_alg».proof.Proof.Gen.Kernel
import proofs.«116273_j44220983279938_1_alg».proof.Proof.Gen.Kernel.Skeleton
import proofs.«116273_j44220983279938_1_alg».proof.Proof.Gen.Kernel.Points
import proofs.«116273_j44220983279938_1_alg».proof.Proof.KernelFrameP
import proofs.«116273_j44220983279938_1_alg».proof.Proof.Gen.KernelIdeal
import proofs.«116273_j44220983279938_1_alg».proof.Proof.Gen.KernelIdeal.Skeleton
import proofs.«116273_j44220983279938_1_alg».proof.Proof.Gen.KernelIdeal.Points
import proofs.«116273_j44220983279938_1_alg».proof.Proof.KernelIdealFrameP
import proofs.«116273_j44220983279938_1_alg».proof.Proof.Gen.ReferenceIdeal
import proofs.«116273_j44220983279938_1_alg».proof.Proof.Gen.Pre_finite_inputs
import proofs.«116273_j44220983279938_1_alg».proof.Proof.Gen.ReferenceIdeal.Run
import proofs.«116273_j44220983279938_1_alg».proof.Proof.KRun
import proofs.«116273_j44220983279938_1_alg».proof.Proof.Fold2
import proofs.«116273_j44220983279938_1_alg».proof.Proof.RefIs
import Idealize.ShloMosaic.Adequacy
import Idealize.ShloMosaic.Init

noncomputable section

namespace Cert.Proof

open Idealize.ShloMosaic Idealize.SL.Sem Cert.Gnn

/-- The two idealized programs, run from memories agreeing on the arguments, both end with their result at the
    specification's function of the (kernel's) arguments. -/
theorem algebraic : Cert.algebraic_KernelIdeal_ReferenceIdeal := by
  intro m ρ m' ρ' _ hagree
  refine ⟨fun c => gnn (Fold.aZ m c) (Fold.aEW m c) (Fold.aW m c) (Fold.aWih m c) (Fold.aWhh m c) (Fold.aBih m c) (Fold.aBhh m c) (Fold.aE m c), ?_, ?_⟩
  · exact (θ_run Cert.KernelIdeal.defs _ _).mono
      (fun r h c => ⟨(h c).1.trans ((Fold.w12_v56 m ρ c).trans (Fold.x3_eq m c)), (h c).2⟩) (KRun.run_result m ρ)
  · refine (θ_run Cert.ReferenceIdeal.defs _ _).mono (fun r h c => ⟨(h c).1.trans ?_, (h c).2⟩)
      (Cert.ReferenceIdeal.Value.run (F := Ideal) m' ρ')
    refine ((Cert.ReferenceIdeal.Value.val4_main_v165 _).symm.trans (Ref.result_eq _)).trans ?_
    show gnn (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.Value.run (F := Ideal) m ρ),
  trivial,
  algebraic⟩

end Cert.Proof

end
